-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S32768x1024 : Shape := ⟨2, ![32768, 1024]⟩
abbrev S32767x1024 : Shape := ⟨2, ![32767, 1024]⟩
abbrev S_ : Shape := ⟨0, ![]⟩
abbrev S1024x1024 : Shape := ⟨2, ![1024, 1024]⟩
abbrev S1x1024 : Shape := ⟨2, ![1, 1024]⟩
abbrev S512x1024 : Shape := ⟨2, ![512, 1024]⟩
abbrev S1024 : Shape := ⟨1, ![1024]⟩
abbrev S1024x1 : Shape := ⟨2, ![1024, 1]⟩

abbrev nBuf : Space → Nat
  | .hbm => 60
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32767x1024, .f32⟩
  | .hbm, ⟨2, _⟩ => ⟨S_, .i32⟩
  | .hbm, ⟨3, _⟩ => ⟨S_, .f32⟩
  | .hbm, ⟨4, _⟩ => ⟨S32768x1024, .f32⟩
  | .hbm, ⟨5, _⟩ => ⟨S32767x1024, .f32⟩
  | .hbm, ⟨6, _⟩ => ⟨S_, .i32⟩
  | .hbm, ⟨7, _⟩ => ⟨S_, .f32⟩
  | .hbm, ⟨8, _⟩ => ⟨S32768x1024, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024x1, .f32⟩
  | .hbm, ⟨19, _⟩ => ⟨S1x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024x1, .f32⟩
  | .hbm, ⟨38, _⟩ => ⟨S1x1024, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .i32⟩
  | .hbm, ⟨46, _⟩ => ⟨S1024x1024, .i32⟩
  | .hbm, ⟨47, _⟩ => ⟨S_, .i32⟩
  | .hbm, ⟨48, _⟩ => ⟨S1024x1024, .i32⟩
  | .hbm, ⟨49, _⟩ => ⟨S1024x1024, .i32⟩
  | .hbm, ⟨50, _⟩ => ⟨S1024x1024, .i1⟩
  | .hbm, ⟨51, _⟩ => ⟨S1024x1024, .f32⟩
  | .hbm, ⟨52, _⟩ => ⟨S_, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call1_v0 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  slices_S32768x1024_S32767x1024_1_0 : S32768x1024.Slices ![1, 0] S32767x1024
  pads_S32767x1024_S32768x1024_010_000 : S32767x1024.Pads (![0, 0] : Fin 2 → Nat) ![1, 0] ![0, 0] S32768x1024
  h_S_ : 0 < S_.numel
  slices_S32768x1024_S32767x1024_0_0 : S32768x1024.Slices ![0, 0] S32767x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S1024x1024 : S1024x1024.ShapeCasts S1024x1024
  shapeCasts_S1x1024_S1x1024 : S1x1024.ShapeCasts S1x1024
  reduces_S512x1024_S1024 : S512x1024.Reduces [0] S1024
  shapeCasts_S1024_S1x1024 : S1024.ShapeCasts S1x1024
  shapeCasts_S1x1024_S1024 : S1x1024.ShapeCasts S1024
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S_S1024 : S_.BroadcastsInDim S1024 (![] : Fin 0 → Fin S1024.rank)
  reducesTo_S1024x1024_S_d0_1 : S1024x1024.ReducesTo [0, 1] S_
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)

variable [Facts₀]

def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1024x1024.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x1024.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S1x1024.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_3) S1x1024.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_4) S1x1024.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32767x1024 : Shape := ⟨2, ![32767, 1024]⟩
abbrev S_ : Shape := ⟨0, ![]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32767x1024, .f32⟩
  | .hbm, ⟨2, _⟩ => ⟨S32767x1024, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S32767x1024, .f32⟩
  | .hbm, ⟨10, _⟩ => ⟨S32767x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S32767x1024, .f32⟩
  | .hbm, ⟨18, _⟩ => ⟨S32767x1024, .f32⟩
  | .hbm, ⟨19, _⟩ => ⟨S1024x1024, .f32⟩
  | .hbm, ⟨20, _⟩ => ⟨S32767x1024, .f32⟩
  | .hbm, ⟨21, _⟩ => ⟨S_, .f32⟩
  | .hbm, ⟨22, _⟩ => ⟨S1024, .f32⟩
  | .hbm, ⟨23, _⟩ => ⟨S32767x1024, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .i32⟩
  | .hbm, ⟨35, _⟩ => ⟨S1024x1024, .i32⟩
  | .hbm, ⟨36, _⟩ => ⟨S_, .i32⟩
  | .hbm, ⟨37, _⟩ => ⟨S1024x1024, .i32⟩
  | .hbm, ⟨38, _⟩ => ⟨S1024x1024, .i32⟩
  | .hbm, ⟨39, _⟩ => ⟨S1024x1024, .i1⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_6 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  slices_S32768x1024_S32767x1024_1_0 : S32768x1024.Slices ![1, 0] S32767x1024
  slices_S32768x1024_S32767x1024_0_0 : S32768x1024.Slices ![0, 0] S32767x1024
  reducesTo_S32767x1024_S1024_d0 : S32767x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S32767x1024_0_1 : S1x1024.BroadcastsInDim S32767x1024 (![0, 1] : Fin 2 → Fin S32767x1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  reducesTo_S1024x1024_S_d0_1 : S1024x1024.ReducesTo [0, 1] S_
  dot_S32767x1024_S32767x1024_S1024x1024_0_0_1_1_n_n_wf : DotDims.WF S32767x1024 S32767x1024 S1024x1024 [0] [0] [1] [1] [] []

variable [Facts₀]

def dot_S32767x1024_S32767x1024_S1024x1024_0_0_1_1_n_n : DotDims S32767x1024 S32767x1024 S1024x1024 where
  lhsContracting := [0]
  rhsContracting := [0]
  lhsNonContracting := [1]
  rhsNonContracting := [1]
  lhsBatch := []
  rhsBatch := []
  wf := dot_S32767x1024_S32767x1024_S1024x1024_0_0_1_1_n_n_wf

class Facts : Prop extends Facts₀ where

variable [Facts]
-- ==== Proof.BlockPieces.lean ====
/-
  What one grid step leaves in the five accumulators, as values.

  At every grid step the body adds to each accumulator the contribution of the step's 512 rows: to the F×F cross
  product the product of the two row blocks contracted over the rows, and to each of the four F-vectors a column
  sum of a row block or of its entrywise square.  At the first step the accumulators are first reset to zero, so the
  value added to is the zero array; at every later step it is what the step before left.  This module reads the
  stores the run of the body found for each of the two cases back as those values: each accumulator is covered by
  its last store, whose payload is the update applied to the step's two row blocks and to the accumulator's
  contents before the update (the reset value at the first step).
-/
import proofs.«160371_j7275674599912_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-! ## A later step: the update of what the step before left -/

theorem out_B_2 (c : Dev nD) (i : grid0.Coords) (a1 : Memref sig .tc .vmem S512x1024 .f32) (h1 : a1.IsWhole)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1x1024 .f32) (h6 : a6.IsWhole) (a7 : Memref sig .tc .vmem S1x1024 .f32) (h7 : a7.IsWhole)
    (hc : ¬cond0_0 i) (x0 x1 : Vec F S512x1024 .f32) (xo2 : Vec F S1024x1024 .f32) (xo3 xo4 xo5 xo6 : Vec F S1x1024 .f32) :
    out0_B_2 c i a1 h1 a2 h2 a3 h3 a4 h4 a5 h5 a6 h6 a7 h7 hc x0 x1 xo2 xo3 xo4 xo5 xo6 = k0_pay9 x0 x1 xo2 := by
  unfold out0_B_2
  rw [View.read_writes_eq_canon _ _ _ (cover0_B_2 c i a1 h1 a2 h2 a3 h3 a4 h4 a5 h5 a6 h6 a7 h7 hc x0 x1 xo2 xo3 xo4 xo5 xo6)]
  unfold kernelRun0_B
  dsimp only
  (try sl_unfold_words)
  rw [View.canon_unit_zero hz]
  simp only [View.readAt_eq_ld, h1.read_unread, h2.read_unread, h3.read_unread, h4.read_unread, h5.read_unread,
    h6.read_unread, h7.read_unread, View.ld_unit_zero (S := S512x1024) hz, View.ld_unit_zero (S := S1024x1024) hz,
    View.ld_unit_zero (S := S1x1024) hz]

theorem out_B_3 (c : Dev nD) (i : grid0.Coords) (a1 : Memref sig .tc .vmem S512x1024 .f32) (h1 : a1.IsWhole)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1x1024 .f32) (h6 : a6.IsWhole) (a7 : Memref sig .tc .vmem S1x1024 .f32) (h7 : a7.IsWhole)
    (hc : ¬cond0_0 i) (x0 x1 : Vec F S512x1024 .f32) (xo2 : Vec F S1024x1024 .f32) (xo3 xo4 xo5 xo6 : Vec F S1x1024 .f32) :
    out0_B_3 c i a1 h1 a2 h2 a3 h3 a4 h4 a5 h5 a6 h6 a7 h7 hc x0 x1 xo2 xo3 xo4 xo5 xo6 = k0_pay10 x0 xo3 := by
  unfold out0_B_3
  rw [View.read_writes_eq_canon _ _ _ (cover0_B_3 c i a1 h1 a2 h2 a3 h3 a4 h4 a5 h5 a6 h6 a7 h7 hc x0 x1 xo2 xo3 xo4 xo5 xo6)]
  unfold kernelRun0_B
  dsimp only
  (try sl_unfold_words)
  rw [View.canon_unit_zero hz]
  simp only [View.readAt_eq_ld, h1.read_unread, h2.read_unread, h3.read_unread, h4.read_unread, h5.read_unread,
    h6.read_unread, h7.read_unread, View.ld_unit_zero (S := S512x1024) hz, View.ld_unit_zero (S := S1024x1024) hz,
    View.ld_unit_zero (S := S1x1024) hz]

theorem out_B_4 (c : Dev nD) (i : grid0.Coords) (a1 : Memref sig .tc .vmem S512x1024 .f32) (h1 : a1.IsWhole)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1x1024 .f32) (h6 : a6.IsWhole) (a7 : Memref sig .tc .vmem S1x1024 .f32) (h7 : a7.IsWhole)
    (hc : ¬cond0_0 i) (x0 x1 : Vec F S512x1024 .f32) (xo2 : Vec F S1024x1024 .f32) (xo3 xo4 xo5 xo6 : Vec F S1x1024 .f32) :
    out0_B_4 c i a1 h1 a2 h2 a3 h3 a4 h4 a5 h5 a6 h6 a7 h7 hc x0 x1 xo2 xo3 xo4 xo5 xo6 = k0_pay11 x1 xo4 := by
  unfold out0_B_4
  rw [View.read_writes_eq_canon _ _ _ (cover0_B_4 c i a1 h1 a2 h2 a3 h3 a4 h4 a5 h5 a6 h6 a7 h7 hc x0 x1 xo2 xo3 xo4 xo5 xo6)]
  unfold kernelRun0_B
  dsimp only
  (try sl_unfold_words)
  rw [View.canon_unit_zero hz]
  simp only [View.readAt_eq_ld, h1.read_unread, h2.read_unread, h3.read_unread, h4.read_unread, h5.read_unread,
    h6.read_unread, h7.read_unread, View.ld_unit_zero (S := S512x1024) hz, View.ld_unit_zero (S := S1024x1024) hz,
    View.ld_unit_zero (S := S1x1024) hz]

theorem out_B_5 (c : Dev nD) (i : grid0.Coords) (a1 : Memref sig .tc .vmem S512x1024 .f32) (h1 : a1.IsWhole)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1x1024 .f32) (h6 : a6.IsWhole) (a7 : Memref sig .tc .vmem S1x1024 .f32) (h7 : a7.IsWhole)
    (hc : ¬cond0_0 i) (x0 x1 : Vec F S512x1024 .f32) (xo2 : Vec F S1024x1024 .f32) (xo3 xo4 xo5 xo6 : Vec F S1x1024 .f32) :
    out0_B_5 c i a1 h1 a2 h2 a3 h3 a4 h4 a5 h5 a6 h6 a7 h7 hc x0 x1 xo2 xo3 xo4 xo5 xo6 = k0_pay12 x0 xo5 := by
  unfold out0_B_5
  rw [View.read_writes_eq_canon _ _ _ (cover0_B_5 c i a1 h1 a2 h2 a3 h3 a4 h4 a5 h5 a6 h6 a7 h7 hc x0 x1 xo2 xo3 xo4 xo5 xo6)]
  unfold kernelRun0_B
  dsimp only
  (try sl_unfold_words)
  rw [View.canon_unit_zero hz]
  simp only [View.readAt_eq_ld, h1.read_unread, h2.read_unread, h3.read_unread, h4.read_unread, h5.read_unread,
    h6.read_unread, h7.read_unread, View.ld_unit_zero (S := S512x1024) hz, View.ld_unit_zero (S := S1024x1024) hz,
    View.ld_unit_zero (S := S1x1024) hz]

theorem out_B_6 (c : Dev nD) (i : grid0.Coords) (a1 : Memref sig .tc .vmem S512x1024 .f32) (h1 : a1.IsWhole)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1x1024 .f32) (h6 : a6.IsWhole) (a7 : Memref sig .tc .vmem S1x1024 .f32) (h7 : a7.IsWhole)
    (hc : ¬cond0_0 i) (x0 x1 : Vec F S512x1024 .f32) (xo2 : Vec F S1024x1024 .f32) (xo3 xo4 xo5 xo6 : Vec F S1x1024 .f32) :
    out0_B_6 c i a1 h1 a2 h2 a3 h3 a4 h4 a5 h5 a6 h6 a7 h7 hc x0 x1 xo2 xo3 xo4 xo5 xo6 = k0_pay1 (k0_pay8 x1) xo6 := by
  unfold out0_B_6
  rw [View.read_writes_eq_canon _ _ _ (cover0_B_6 c i a1 h1 a2 h2 a3 h3 a4 h4 a5 h5 a6 h6 a7 h7 hc x0 x1 xo2 xo3 xo4 xo5 xo6)]
  unfold kernelRun0_B
  dsimp only
  (try sl_unfold_words)
  rw [View.canon_unit_zero hz]
  simp only [View.readAt_eq_ld, h1.read_unread, h2.read_unread, h3.read_unread, h4.read_unread, h5.read_unread,
    h6.read_unread, h7.read_unread, View.ld_unit_zero (S := S512x1024) hz, View.ld_unit_zero (S := S1024x1024) hz,
    View.ld_unit_zero (S := S1x1024) hz]

/-! ## The first step: the update of the reset value -/

theorem out_A_2 (c : Dev nD) (i : grid0.Coords) (a1 : Memref sig .tc .vmem S512x1024 .f32) (h1 : a1.IsWhole)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1x1024 .f32) (h6 : a6.IsWhole) (a7 : Memref sig .tc .vmem S1x1024 .f32) (h7 : a7.IsWhole)
    (hc : cond0_0 i) (x0 x1 : Vec F S512x1024 .f32) :
    out0_A_2 c i a1 h1 a2 h2 a3 h3 a4 h4 a5 h5 a6 h6 a7 h7 hc x0 x1 = k0_pay9 x0 x1 (k0_pay2 (F := F)) := by
  unfold out0_A_2
  rw [View.read_writes_eq_canon _ _ _ (cover0_A_2 c i a1 h1 a2 h2 a3 h3 a4 h4 a5 h5 a6 h6 a7 h7 hc x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, View.ld_unit_zero (S := S512x1024) hz]

theorem out_A_3 (c : Dev nD) (i : grid0.Coords) (a1 : Memref sig .tc .vmem S512x1024 .f32) (h1 : a1.IsWhole)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1x1024 .f32) (h6 : a6.IsWhole) (a7 : Memref sig .tc .vmem S1x1024 .f32) (h7 : a7.IsWhole)
    (hc : cond0_0 i) (x0 x1 : Vec F S512x1024 .f32) :
    out0_A_3 c i a1 h1 a2 h2 a3 h3 a4 h4 a5 h5 a6 h6 a7 h7 hc x0 x1 = k0_pay10 x0 (k0_pay3 (F := F)) := by
  unfold out0_A_3
  rw [View.read_writes_eq_canon _ _ _ (cover0_A_3 c i a1 h1 a2 h2 a3 h3 a4 h4 a5 h5 a6 h6 a7 h7 hc x0 x1)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S512x1024) hz]

theorem out_A_4 (c : Dev nD) (i : grid0.Coords) (a1 : Memref sig .tc .vmem S512x1024 .f32) (h1 : a1.IsWhole)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1x1024 .f32) (h6 : a6.IsWhole) (a7 : Memref sig .tc .vmem S1x1024 .f32) (h7 : a7.IsWhole)
    (hc : cond0_0 i) (x0 x1 : Vec F S512x1024 .f32) :
    out0_A_4 c i a1 h1 a2 h2 a3 h3 a4 h4 a5 h5 a6 h6 a7 h7 hc x0 x1 = k0_pay11 x1 (k0_pay4 (F := F)) := by
  unfold out0_A_4
  rw [View.read_writes_eq_canon _ _ _ (cover0_A_4 c i a1 h1 a2 h2 a3 h3 a4 h4 a5 h5 a6 h6 a7 h7 hc x0 x1)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S512x1024) hz]

theorem out_A_5 (c : Dev nD) (i : grid0.Coords) (a1 : Memref sig .tc .vmem S512x1024 .f32) (h1 : a1.IsWhole)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1x1024 .f32) (h6 : a6.IsWhole) (a7 : Memref sig .tc .vmem S1x1024 .f32) (h7 : a7.IsWhole)
    (hc : cond0_0 i) (x0 x1 : Vec F S512x1024 .f32) :
    out0_A_5 c i a1 h1 a2 h2 a3 h3 a4 h4 a5 h5 a6 h6 a7 h7 hc x0 x1 = k0_pay12 x0 (k0_pay5 (F := F)) := by
  unfold out0_A_5
  rw [View.read_writes_eq_canon _ _ _ (cover0_A_5 c i a1 h1 a2 h2 a3 h3 a4 h4 a5 h5 a6 h6 a7 h7 hc x0 x1)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S512x1024) hz]

theorem out_A_6 (c : Dev nD) (i : grid0.Coords) (a1 : Memref sig .tc .vmem S512x1024 .f32) (h1 : a1.IsWhole)
    (a2 : Memref sig .tc .vmem S512x1024 .f32) (h2 : a2.IsWhole) (a3 : Memref sig .tc .vmem S1024x1024 .f32) (h3 : a3.IsWhole)
    (a4 : Memref sig .tc .vmem S1x1024 .f32) (h4 : a4.IsWhole) (a5 : Memref sig .tc .vmem S1x1024 .f32) (h5 : a5.IsWhole)
    (a6 : Memref sig .tc .vmem S1x1024 .f32) (h6 : a6.IsWhole) (a7 : Memref sig .tc .vmem S1x1024 .f32) (h7 : a7.IsWhole)
    (hc : cond0_0 i) (x0 x1 : Vec F S512x1024 .f32) :
    out0_A_6 c i a1 h1 a2 h2 a3 h3 a4 h4 a5 h5 a6 h6 a7 h7 hc x0 x1 = k0_pay1 (k0_pay8 x1) (k0_pay6 (F := F)) := by
  unfold out0_A_6
  rw [View.read_writes_eq_canon _ _ _ (cover0_A_6 c i a1 h1 a2 h2 a3 h3 a4 h4 a5 h5 a6 h6 a7 h7 hc x0 x1)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S512x1024) hz]

end Cert.KernelIdeal.Pieces
end
-- ==== Proof.LibMatmulTN.lean ====
/-
  A matrix product that contracts the FIRST axis of both operands (A-transposed times B), read at an entry.

  For a [K,M] left operand A and a [K,N] right operand B, contracted over their common axis 0 into a zero
  accumulator, the result at (p, q) is  ∑ k < K, A[k,p] · B[k,q]  over the extended reals: the textbook product
  AᵀB, whatever the operands' float formats (a change of format is the identity there).  Stated for any dimension
  record equal to `dims K M N` (contracting axes [0] and [0], free axes [1] and [1], no batch axes), generic in
  K, M, N.  This is the kernel spelling of jnp.einsum('sw,sh->wh', …).
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.MatmulTN

/-- The dimension numbers ⟨[0], [0], [1], [1], [], []⟩: a K×M operand and a K×N operand, both contracted on
    axis 0, giving M×N. -/
def dims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : ℕ}

/-- The left operand is read at (contraction position, result row). -/
theorem lhs_0 (j : (⟨2, ![M, N]⟩ : Shape).Idx) (q : (dims K M N).contr.Idx) :
    ((dims K M N).lhsIdx j q 0).val = (q ⟨0, by rw [DotDims.rank_contr]; exact Nat.one_pos⟩).val :=
  (dims K M N).lhsIdx_val_of_single rfl j q
theorem lhs_1 (j : (⟨2, ![M, N]⟩ : Shape).Idx) (q : (dims K M N).contr.Idx) :
    ((dims K M N).lhsIdx j q 1).val = (j 0).val := by
  unfold DotDims.lhsIdx
  rw [dif_neg (show ¬(1 : Fin 2) ∈ (dims K M N).lhsBatch from List.not_mem_nil),
    dif_pos (show (1 : Fin 2) ∈ (dims K M N).lhsNonContracting from List.mem_singleton.mpr rfl)]
  rfl
/-- The right operand is read at (contraction position, result column). -/
theorem rhs_0 (j : (⟨2, ![M, N]⟩ : Shape).Idx) (q : (dims K M N).contr.Idx) :
    ((dims K M N).rhsIdx j q 0).val = (q ⟨0, by rw [DotDims.rank_contr]; exact Nat.one_pos⟩).val :=
  (dims K M N).rhsIdx_val_of_single rfl j q
theorem rhs_1 (j : (⟨2, ![M, N]⟩ : Shape).Idx) (q : (dims K M N).contr.Idx) :
    ((dims K M N).rhsIdx j q 1).val = (j 1).val := by
  unfold DotDims.rhsIdx
  rw [dif_neg (show ¬(1 : Fin 2) ∈ (dims K M N).rhsBatch from List.not_mem_nil),
    dif_pos (show (1 : Fin 2) ∈ (dims K M N).rhsNonContracting from List.mem_singleton.mpr rfl)]
  rfl

/-- A product contracting axis 0 of both operands, into zeros, at (p, q): the sum over the contracted position k
    of A[k,p] · B[k,q]. -/
theorem matmul_apply {φ₁ φ₂ : FTy} (D : DotDims ⟨2, ![K, M]⟩ ⟨2, ![K, N]⟩ ⟨2, ![M, N]⟩) (hD : D = dims K M N)
    (prec : Option ContractPrecision) (A : FVec Ideal ⟨2, ![K, M]⟩ φ₁) (B : FVec Ideal ⟨2, ![K, N]⟩ φ₂)
    (p : Fin M) (q : Fin N) :
    matmul D prec A B (constant (F := Ideal) ⟨2, ![M, N]⟩ .f32 0x00000000#32) (ix2 p q)
      = ∑ k : Fin K, A (ix2 k p) * B (ix2 k q) := by
  subst hD
  simp only [matmul]
  rw [Ideal.matmul_constant_zero_apply, ← Equiv.sum_comp (contrEquiv1 (dims K M N) K rfl rfl).symm]
  refine Finset.sum_congr rfl fun k _ => ?_
  have hk := contrEquiv1_symm_val (dims K M N) K rfl rfl k
  have el : (dims K M N).lhsIdx (ix2 p q) ((contrEquiv1 (dims K M N) K rfl rfl).symm k) = ix2 k p :=
    funext fun a => Fin.ext (by
      match a with
      | ⟨0, _⟩ => exact (lhs_0 _ _).trans hk
      | ⟨1, _⟩ => exact lhs_1 _ _)
  have er : (dims K M N).rhsIdx (ix2 p q) ((contrEquiv1 (dims K M N) K rfl rfl).symm k) = ix2 k q :=
    funext fun a => Fin.ext (by
      match a with
      | ⟨0, _⟩ => exact (rhs_0 _ _).trans hk
      | ⟨1, _⟩ => exact rhs_1 _ _)
  rw [el, er]

end Cert.MatmulTN

end
-- ==== Proof.LibColumnReduce.lean ====
/-
  Reusable lemmas: reductions down the columns of an [a, b] array, read at an entry.

  A vector.multi_reduction over axis 0 of an [a, b] array leaves a [b] array whose entry q gathers column q:
      <add>       from the zero accumulator:  Σ_p src[p, q],
      <maximumf>  from the accumulator's value:  the fold of max over p of src[p, q].
  Both are read over the extended reals; generic in the extents and the float format.
-/
import Idealize.ShloMosaic.Lib.Pipeline.Value
import Idealize.ShloMosaic.Lib.ValueIdx
import Idealize.ShloMosaic.PureOps.Ideal.Laws

noncomputable section

namespace Cert.ColumnReduce

open Idealize.ShloMosaic Idealize.ShloMosaic.ValueIdx

variable {a b : ℕ}

/-- The source index of a reduction over the columns: the column q with the row p inserted is (p, q). -/
theorem lift_col (h : (⟨2, ![a, b]⟩ : Shape).Reduces [(0 : Fin 2)] ⟨1, ![b]⟩) (q : Fin b) (p : Fin a) :
    h.lift (ix1 q) p = ix2 p q := by
  funext d
  apply Fin.ext
  show h.liftVal (ix1 q) p.val d = (ix2 p q d).val
  unfold Shape.Reduces.liftVal
  match d with
  | ⟨0, _⟩ => rfl
  | ⟨1, _⟩ => rfl

/-- A sum down the columns of an [a, b] array, from the zero accumulator, is at q the sum over p of the entries (p, q). -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (q : Fin b) :
    multiReduction .add [(0 : Fin 2)] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = _
  exact Finset.sum_congr rfl fun p _ => congrArg src (lift_col h q p)

/-- A running maximum down the columns of an [a, b] array is at q the fold of max, from the accumulator's value, over
    the entries (p, q). -/
theorem colMax_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.maximumf.neutral φ hφ) (q : Fin b) :
    multiReduction .maximumf [(0 : Fin 2)] ⟨1, ![b]⟩ src acc h hφ hacc (ix1 q)
      = (Finset.univ : Finset (Fin a)).fold max (Ideal.ofBits φ acc) (fun p => src (ix2 p q)) := by
  refine (Ideal.multiReduction_maximumf_single src acc h hφ hacc (ix1 q)).trans ?_
  have e : (src ∘ h.lift (ix1 q)) = fun p => src (ix2 p q) := funext fun p => congrArg src (lift_col h q p)
  show (Finset.univ : Finset (Fin a)).fold max (Ideal.ofBits φ acc) (src ∘ h.lift (ix1 q)) = _
  rw [e]
  rfl

end Cert.ColumnReduce

end
-- ==== Proof.LibRowOfVector.lean ====
/-
  Reusable lemmas: a vector viewed as a one-row matrix and back, read at an entry.

  A shape cast of a length-b vector to a [1, b] matrix keeps the row-major order, so entry (0, q) of the matrix is
  entry q of the vector; the cast of a [1, b] matrix to a length-b vector reads entry q from (0, q).  Generic in the
  extent b and in the element type.
-/
import Idealize.ShloMosaic.Lib.Pipeline.Value
import Idealize.ShloMosaic.Lib.ValueIdx

noncomputable section

namespace Cert.RowOfVector

open Idealize.ShloMosaic Idealize.ShloMosaic.ValueIdx

variable {α : Type} {b : ℕ}

/-- A vector viewed as one row reads, at (u, q), the vector's entry q. -/
theorem row_apply (v : (⟨1, ![b]⟩ : Shape).Idx → α) (h : (⟨1, ![b]⟩ : Shape).ShapeCasts ⟨2, ![1, b]⟩) (u : Fin 1)
    (q : Fin b) : shapeCast ⟨2, ![1, b]⟩ v h (ix2 u q) = v (ix1 q) := by
  refine shapeCast_apply v h (ix2 u q) (ix1 q) ?_
  rw [Shape.rowMajor_val_one, Shape.rowMajor_val_two]
  show q.val = u.val * b + q.val
  have hu : u.val = 0 := by have := u.isLt; omega
  rw [hu]; omega

/-- One row viewed as a vector reads, at q, the row's entry (0, q). -/
theorem vector_apply (v : (⟨2, ![1, b]⟩ : Shape).Idx → α) (h : (⟨2, ![1, b]⟩ : Shape).ShapeCasts ⟨1, ![b]⟩)
    (q : Fin b) : shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show (0 : ℕ) * b + q.val = q.val
  omega

end Cert.RowOfVector

end
-- ==== Proof.BlockSteps.lean ====
/-
  The five updates of one grid step, read at an entry over the extended reals.

  With the step's two row blocks x (current rows) and y (lagged rows), each 512 × F, and an accumulator's contents
  acc before the step:
    the cross product   acc[p,q] + Σ_r x[r,p]·y[r,q]      (a product contracting the row axis of both blocks),
    the column sums     acc[0,q] + Σ_r x[r,q]   and   acc[0,q] + Σ_r y[r,q],
    the sums of squares acc[0,q] + Σ_r x[r,q]²  and   acc[0,q] + Σ_r y[r,q]².
  The reset value of every accumulator is the zero array.
-/
import proofs.«160371_j7275674599912_1_alg».proof.Proof.Gen.KernelIdeal.Skeleton
import proofs.«160371_j7275674599912_1_alg».proof.Proof.LibMatmulTN
import proofs.«160371_j7275674599912_1_alg».proof.Proof.LibColumnReduce
import proofs.«160371_j7275674599912_1_alg».proof.Proof.LibRowOfVector
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Steps
open Cert.KernelIdeal Cert.KernelIdeal.Gen Idealize.ShloMosaic.ValueIdx

/-- The cross product's update at (p, q). -/
theorem cross_step (x y : Vec Ideal S512x1024 .f32) (acc : Vec Ideal S1024x1024 .f32) (p q : Fin 1024) :
    k0_pay9 (F := Ideal) x y acc (ix2 p q) = acc (ix2 p q) + ∑ r : Fin 512, x (ix2 r p) * y (ix2 r q) := by
  unfold k0_pay9 k0_pay7 k0_pay8
  dsimp only
  have e0 : shapeCast S512x1024 x shapeCasts_S512x1024_S512x1024 = x := shapeCast_self _ _
  have e1 : shapeCast S512x1024 y shapeCasts_S512x1024_S512x1024 = y := shapeCast_self _ _
  have e2 : shapeCast S1024x1024 acc shapeCasts_S1024x1024_S1024x1024 = acc := shapeCast_self _ _
  rw [e0, e1, e2]
  refine (addf_apply _ _ _).trans ?_
  refine congrArg (acc (ix2 p q) + ·) ?_
  exact Cert.MatmulTN.matmul_apply dot_S512x1024_S512x1024_S1024x1024_0_0_1_1_n_n rfl (some .fp32) x y p q

/-- The current rows' column sum's update at (0, q). -/
theorem sumc_step (x : Vec Ideal S512x1024 .f32) (acc : Vec Ideal S1x1024 .f32) (u : Fin 1) (q : Fin 1024) :
    k0_pay10 (F := Ideal) x acc (ix2 u q) = acc (ix2 u q) + ∑ r : Fin 512, x (ix2 r q) := by
  unfold k0_pay10 k0_pay7
  dsimp only
  have e0 : shapeCast S512x1024 x shapeCasts_S512x1024_S512x1024 = x := shapeCast_self _ _
  have e1 : shapeCast S1x1024 acc shapeCasts_S1x1024_S1x1024 = acc := shapeCast_self _ _
  rw [e0, e1]
  refine (addf_apply _ _ _).trans ?_
  refine congrArg (acc (ix2 u q) + ·) ?_
  refine (Cert.RowOfVector.row_apply _ _ u q).trans ?_
  exact Cert.ColumnReduce.colSum_apply x _ _ _ _ q

/-- The lagged rows' column sum's update at (0, q). -/
theorem suml_step (y : Vec Ideal S512x1024 .f32) (acc : Vec Ideal S1x1024 .f32) (u : Fin 1) (q : Fin 1024) :
    k0_pay11 (F := Ideal) y acc (ix2 u q) = acc (ix2 u q) + ∑ r : Fin 512, y (ix2 r q) := by
  unfold k0_pay11 k0_pay8
  dsimp only
  have e0 : shapeCast S512x1024 y shapeCasts_S512x1024_S512x1024 = y := shapeCast_self _ _
  have e1 : shapeCast S1x1024 acc shapeCasts_S1x1024_S1x1024 = acc := shapeCast_self _ _
  rw [e0, e1]
  refine (addf_apply _ _ _).trans ?_
  refine congrArg (acc (ix2 u q) + ·) ?_
  refine (Cert.RowOfVector.row_apply _ _ u q).trans ?_
  exact Cert.ColumnReduce.colSum_apply y _ _ _ _ q

/-- The current rows' sum of squares' update at (0, q). -/
theorem sqc_step (x : Vec Ideal S512x1024 .f32) (acc : Vec Ideal S1x1024 .f32) (u : Fin 1) (q : Fin 1024) :
    k0_pay12 (F := Ideal) x acc (ix2 u q) = acc (ix2 u q) + ∑ r : Fin 512, x (ix2 r q) * x (ix2 r q) := by
  unfold k0_pay12 k0_pay7
  dsimp only
  have e0 : shapeCast S512x1024 x shapeCasts_S512x1024_S512x1024 = x := shapeCast_self _ _
  have e1 : shapeCast S1x1024 acc shapeCasts_S1x1024_S1x1024 = acc := shapeCast_self _ _
  rw [e0, e1]
  refine (addf_apply _ _ _).trans ?_
  refine congrArg (acc (ix2 u q) + ·) ?_
  refine (Cert.RowOfVector.row_apply _ _ u q).trans ?_
  exact Cert.ColumnReduce.colSum_apply (mulf x x) _ _ _ _ q

/-- The lagged rows' sum of squares' update at (0, q). -/
theorem sql_step (y : Vec Ideal S512x1024 .f32) (acc : Vec Ideal S1x1024 .f32) (u : Fin 1) (q : Fin 1024) :
    k0_pay1 (F := Ideal) (k0_pay8 y) acc (ix2 u q) = acc (ix2 u q) + ∑ r : Fin 512, y (ix2 r q) * y (ix2 r q) := by
  unfold k0_pay1 k0_pay8
  dsimp only
  have e0 : shapeCast S512x1024 y shapeCasts_S512x1024_S512x1024 = y := shapeCast_self _ _
  have e1 : shapeCast S1x1024 acc shapeCasts_S1x1024_S1x1024 = acc := shapeCast_self _ _
  rw [e0, e1]
  refine (addf_apply _ _ _).trans ?_
  refine congrArg (acc (ix2 u q) + ·) ?_
  refine (Cert.RowOfVector.row_apply _ _ u q).trans ?_
  exact Cert.ColumnReduce.colSum_apply (mulf y y) _ _ _ _ q

/-- The reset values: every entry is zero. -/
theorem reset2 (j : S1024x1024.Idx) : k0_pay2 (F := Ideal) j = 0 := Ideal.ofBits_zero_f32
theorem reset3 (j : S1x1024.Idx) : k0_pay3 (F := Ideal) j = 0 := Ideal.ofBits_zero_f32
theorem reset4 (j : S1x1024.Idx) : k0_pay4 (F := Ideal) j = 0 := Ideal.ofBits_zero_f32
theorem reset5 (j : S1x1024.Idx) : k0_pay5 (F := Ideal) j = 0 := Ideal.ofBits_zero_f32
theorem reset6 (j : S1x1024.Idx) : k0_pay6 (F := Ideal) j = 0 := Ideal.ofBits_zero_f32

end Cert.KernelIdeal.Steps
end
-- ==== Proof.LibRunningSum.lean ====
/-
  A reusable lemma: an accumulator reset at the first step and added to at every later step holds the sum of the
  steps' contributions.

  upTo g n is what the accumulator holds after step n: (0 + g 0) after the first step, and the previous contents
  plus g (n + 1) after each later one.  It is the sum of g over the steps 0 … n, and after the last of N steps the
  sum of g over all of them.  Stated in any commutative additive monoid (the extended reals are one).
-/
import Mathlib.Algebra.BigOperators.Fin

namespace Cert.RunningSum

variable {M : Type} [AddCommMonoid M] {N : ℕ}

/-- The accumulator's contents after step n. -/
def upTo (g : Fin N → M) : (n : ℕ) → n < N → M
  | 0, h => 0 + g ⟨0, h⟩
  | n + 1, h => upTo g n (Nat.lt_of_succ_lt h) + g ⟨n + 1, h⟩

/-- It is the sum of the contributions of the steps 0 … n. -/
theorem upTo_eq_sum (g : Fin N → M) : ∀ (n : ℕ) (h : n < N),
    upTo g n h = ∑ t : Fin (n + 1), g ⟨t.val, Nat.lt_of_lt_of_le t.isLt h⟩
  | 0, h => by
    rw [upTo, zero_add, Fin.sum_univ_one]
    rfl
  | n + 1, h => by
    rw [upTo, upTo_eq_sum g n, Fin.sum_univ_castSucc (n := n + 1)]
    rfl

/-- After the last step it is the sum of all the contributions. -/
theorem upTo_last (g : Fin N → M) (n : ℕ) (h : n < N) (hN : N = n + 1) : upTo g n h = ∑ t : Fin N, g t := by
  subst hN
  rw [upTo_eq_sum]

end Cert.RunningSum
-- ==== Proof.Accumulated.lean ====
/-
  What the five accumulators hold after each grid step, entry by entry.

  The grid has 64 steps; step t stages rows 512·t … 512·t + 511 of the two padded row arrays.  Each accumulator is
  reset at step 0 and added to at every step (the module of the steps' values), and its staging buffer is carried
  from one step to the next, so by induction on the step it holds the sum, in step order, of the steps'
  contributions: for the cross product at (p, q) the step's Σ_r x[r,p]·y[r,q], for the four vectors at q the
  step's column sum of x, of y, of x² and of y².
-/
import proofs.«160371_j7275674599912_1_alg».proof.Proof.BlockPieces
import proofs.«160371_j7275674599912_1_alg».proof.Proof.BlockSteps
import proofs.«160371_j7275674599912_1_alg».proof.Proof.LibRunningSum

set_option maxRecDepth 16384

noncomputable section

open Idealize.ShloMosaic Idealize.ShloMosaic.TcCoe Idealize.SL.Sem
open Idealize.ShloMosaic.Pipeline (Dat)

namespace Cert.KernelIdeal.Accum
open Cert.KernelIdeal Cert.KernelIdeal.Gen Idealize.ShloMosaic.ValueIdx Cert.RunningSum

variable (m : (ℓ : Loc nD τ sig) → Buf (Elt Ideal) ℓ)

/-- The five accumulators' contents, in window order. -/
abbrev Outs : Type := Vec Ideal S1024x1024 .f32 × Vec Ideal S1x1024 .f32 × Vec Ideal S1x1024 .f32 × Vec Ideal S1x1024 .f32 × Vec Ideal S1x1024 .f32

/-- Step t's block of current rows and of lagged rows. -/
abbrev xb (c : Dev nD) (t : Fin cfg0.N) : Vec Ideal S512x1024 .f32 := iblk m c 0 t
abbrev yb (c : Dev nD) (t : Fin cfg0.N) : Vec Ideal S512x1024 .f32 := iblk m c 1 t

/-- Step t's contributions. -/
def crossOf (c : Dev nD) (p q : Fin 1024) (t : Fin cfg0.N) : EReal := ∑ r : Fin 512, xb m c t (ix2 r p) * yb m c t (ix2 r q)
def sumcOf (c : Dev nD) (q : Fin 1024) (t : Fin cfg0.N) : EReal := ∑ r : Fin 512, xb m c t (ix2 r q)
def sumlOf (c : Dev nD) (q : Fin 1024) (t : Fin cfg0.N) : EReal := ∑ r : Fin 512, yb m c t (ix2 r q)
def sqcOf (c : Dev nD) (q : Fin 1024) (t : Fin cfg0.N) : EReal := ∑ r : Fin 512, xb m c t (ix2 r q) * xb m c t (ix2 r q)
def sqlOf (c : Dev nD) (q : Fin 1024) (t : Fin cfg0.N) : EReal := ∑ r : Fin 512, yb m c t (ix2 r q) * yb m c t (ix2 r q)

/-- After step n the accumulator of window 2 holds, entry by entry, the steps' contributions summed in step order. -/
theorem cross_at (c : Dev nD) (p q : Fin 1024) : ∀ (n : ℕ) (h : n < cfg0.N),
    (outsAt0 m c n h).1 (ix2 p q) = upTo (crossOf m c p q) n h
  | 0, h => by
    refine (congrArg (fun o : Outs => o.1 (ix2 p q)) (outsAt0_A m c ⟨0, h⟩ (Nat.zero_mod _))).trans ?_
    dsimp only
    refine (congrFun (Pieces.out_A_2 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩)
      ((hcond0_0 ⟨0, h⟩).mpr (Nat.zero_mod _)) (iblk m c 0 ⟨0, h⟩) (iblk m c 1 ⟨0, h⟩)) (ix2 p q)).trans ?_
    refine (Steps.cross_step (iblk m c 0 ⟨0, h⟩) (iblk m c 1 ⟨0, h⟩) (k0_pay2 (F := Ideal)) p q).trans ?_
    rw [Steps.reset2]
    rfl
  | n + 1, h => by
    have hB : ¬(⟨n + 1, h⟩ : Fin cfg0.N).val % 64 = 0 := by
      have hN : n + 1 < 64 := lt_of_lt_of_eq h (show cfg0.N = 64 from N_0)
      dsimp only; omega
    refine (congrArg (fun o : Outs => o.1 (ix2 p q)) (outsAt0_B m c ⟨n + 1, h⟩ hB)).trans ?_
    dsimp only
    refine (congrFun (Pieces.out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩)
      (fun hh => hB ((hcond0_0 ⟨n + 1, h⟩).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2) (ix2 p q)).trans ?_
    refine (Steps.cross_step (iblk m c 0 ⟨n + 1, h⟩) (iblk m c 1 ⟨n + 1, h⟩) (outsAt0 m c n (Nat.lt_of_succ_lt h)).1 p q).trans ?_
    rw [cross_at c p q n (Nat.lt_of_succ_lt h)]
    rfl

/-- After step n the accumulator of window 3 holds, entry by entry, the steps' contributions summed in step order. -/
theorem sumc_at (c : Dev nD) (u : Fin 1) (q : Fin 1024) : ∀ (n : ℕ) (h : n < cfg0.N),
    (outsAt0 m c n h).2.1 (ix2 u q) = upTo (sumcOf m c q) n h
  | 0, h => by
    refine (congrArg (fun o : Outs => o.2.1 (ix2 u q)) (outsAt0_A m c ⟨0, h⟩ (Nat.zero_mod _))).trans ?_
    dsimp only
    refine (congrFun (Pieces.out_A_3 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩)
      ((hcond0_0 ⟨0, h⟩).mpr (Nat.zero_mod _)) (iblk m c 0 ⟨0, h⟩) (iblk m c 1 ⟨0, h⟩)) (ix2 u q)).trans ?_
    refine (Steps.sumc_step (iblk m c 0 ⟨0, h⟩) (k0_pay3 (F := Ideal)) u q).trans ?_
    rw [Steps.reset3]
    rfl
  | n + 1, h => by
    have hB : ¬(⟨n + 1, h⟩ : Fin cfg0.N).val % 64 = 0 := by
      have hN : n + 1 < 64 := lt_of_lt_of_eq h (show cfg0.N = 64 from N_0)
      dsimp only; omega
    refine (congrArg (fun o : Outs => o.2.1 (ix2 u q)) (outsAt0_B m c ⟨n + 1, h⟩ hB)).trans ?_
    dsimp only
    refine (congrFun (Pieces.out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩)
      (fun hh => hB ((hcond0_0 ⟨n + 1, h⟩).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2) (ix2 u q)).trans ?_
    refine (Steps.sumc_step (iblk m c 0 ⟨n + 1, h⟩) (outsAt0 m c n (Nat.lt_of_succ_lt h)).2.1 u q).trans ?_
    rw [sumc_at c u q n (Nat.lt_of_succ_lt h)]
    rfl

/-- After step n the accumulator of window 4 holds, entry by entry, the steps' contributions summed in step order. -/
theorem suml_at (c : Dev nD) (u : Fin 1) (q : Fin 1024) : ∀ (n : ℕ) (h : n < cfg0.N),
    (outsAt0 m c n h).2.2.1 (ix2 u q) = upTo (sumlOf m c q) n h
  | 0, h => by
    refine (congrArg (fun o : Outs => o.2.2.1 (ix2 u q)) (outsAt0_A m c ⟨0, h⟩ (Nat.zero_mod _))).trans ?_
    dsimp only
    refine (congrFun (Pieces.out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩)
      ((hcond0_0 ⟨0, h⟩).mpr (Nat.zero_mod _)) (iblk m c 0 ⟨0, h⟩) (iblk m c 1 ⟨0, h⟩)) (ix2 u q)).trans ?_
    refine (Steps.suml_step (iblk m c 1 ⟨0, h⟩) (k0_pay4 (F := Ideal)) u q).trans ?_
    rw [Steps.reset4]
    rfl
  | n + 1, h => by
    have hB : ¬(⟨n + 1, h⟩ : Fin cfg0.N).val % 64 = 0 := by
      have hN : n + 1 < 64 := lt_of_lt_of_eq h (show cfg0.N = 64 from N_0)
      dsimp only; omega
    refine (congrArg (fun o : Outs => o.2.2.1 (ix2 u q)) (outsAt0_B m c ⟨n + 1, h⟩ hB)).trans ?_
    dsimp only
    refine (congrFun (Pieces.out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩)
      (fun hh => hB ((hcond0_0 ⟨n + 1, h⟩).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2) (ix2 u q)).trans ?_
    refine (Steps.suml_step (iblk m c 1 ⟨n + 1, h⟩) (outsAt0 m c n (Nat.lt_of_succ_lt h)).2.2.1 u q).trans ?_
    rw [suml_at c u q n (Nat.lt_of_succ_lt h)]
    rfl

/-- After step n the accumulator of window 5 holds, entry by entry, the steps' contributions summed in step order. -/
theorem sqc_at (c : Dev nD) (u : Fin 1) (q : Fin 1024) : ∀ (n : ℕ) (h : n < cfg0.N),
    (outsAt0 m c n h).2.2.2.1 (ix2 u q) = upTo (sqcOf m c q) n h
  | 0, h => by
    refine (congrArg (fun o : Outs => o.2.2.2.1 (ix2 u q)) (outsAt0_A m c ⟨0, h⟩ (Nat.zero_mod _))).trans ?_
    dsimp only
    refine (congrFun (Pieces.out_A_5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩)
      ((hcond0_0 ⟨0, h⟩).mpr (Nat.zero_mod _)) (iblk m c 0 ⟨0, h⟩) (iblk m c 1 ⟨0, h⟩)) (ix2 u q)).trans ?_
    refine (Steps.sqc_step (iblk m c 0 ⟨0, h⟩) (k0_pay5 (F := Ideal)) u q).trans ?_
    rw [Steps.reset5]
    rfl
  | n + 1, h => by
    have hB : ¬(⟨n + 1, h⟩ : Fin cfg0.N).val % 64 = 0 := by
      have hN : n + 1 < 64 := lt_of_lt_of_eq h (show cfg0.N = 64 from N_0)
      dsimp only; omega
    refine (congrArg (fun o : Outs => o.2.2.2.1 (ix2 u q)) (outsAt0_B m c ⟨n + 1, h⟩ hB)).trans ?_
    dsimp only
    refine (congrFun (Pieces.out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩)
      (fun hh => hB ((hcond0_0 ⟨n + 1, h⟩).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2) (ix2 u q)).trans ?_
    refine (Steps.sqc_step (iblk m c 0 ⟨n + 1, h⟩) (outsAt0 m c n (Nat.lt_of_succ_lt h)).2.2.2.1 u q).trans ?_
    rw [sqc_at c u q n (Nat.lt_of_succ_lt h)]
    rfl

/-- After step n the accumulator of window 6 holds, entry by entry, the steps' contributions summed in step order. -/
theorem sql_at (c : Dev nD) (u : Fin 1) (q : Fin 1024) : ∀ (n : ℕ) (h : n < cfg0.N),
    (outsAt0 m c n h).2.2.2.2 (ix2 u q) = upTo (sqlOf m c q) n h
  | 0, h => by
    refine (congrArg (fun o : Outs => o.2.2.2.2 (ix2 u q)) (outsAt0_A m c ⟨0, h⟩ (Nat.zero_mod _))).trans ?_
    dsimp only
    refine (congrFun (Pieces.out_A_6 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩)
      ((hcond0_0 ⟨0, h⟩).mpr (Nat.zero_mod _)) (iblk m c 0 ⟨0, h⟩) (iblk m c 1 ⟨0, h⟩)) (ix2 u q)).trans ?_
    refine (Steps.sql_step (iblk m c 1 ⟨0, h⟩) (k0_pay6 (F := Ideal)) u q).trans ?_
    rw [Steps.reset6]
    rfl
  | n + 1, h => by
    have hB : ¬(⟨n + 1, h⟩ : Fin cfg0.N).val % 64 = 0 := by
      have hN : n + 1 < 64 := lt_of_lt_of_eq h (show cfg0.N = 64 from N_0)
      dsimp only; omega
    refine (congrArg (fun o : Outs => o.2.2.2.2 (ix2 u q)) (outsAt0_B m c ⟨n + 1, h⟩ hB)).trans ?_
    dsimp only
    refine (congrFun (Pieces.out_B_6 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩)
      (fun hh => hB ((hcond0_0 ⟨n + 1, h⟩).mp hh)) (iblk m c 0 ⟨n + 1, h⟩) (iblk m c 1 ⟨n + 1, h⟩)
      (outsAt0 m c n (Nat.lt_of_succ_lt h)).1 (outsAt0 m c n (Nat.lt_of_succ_lt h)).2.1 (outsAt0 m c n (Nat.lt_of_succ_lt h)).2.2.1 (outsAt0 m c n (Nat.lt_of_succ_lt h)).2.2.2.1 (outsAt0 m c n (Nat.lt_of_succ_lt h)).2.2.2.2) (ix2 u q)).trans ?_
    refine (Steps.sql_step (iblk m c 1 ⟨n + 1, h⟩) (outsAt0 m c n (Nat.lt_of_succ_lt h)).2.2.2.2 u q).trans ?_
    rw [sql_at c u q n (Nat.lt_of_succ_lt h)]
    rfl

end Cert.KernelIdeal.Accum
end
-- ==== Proof.RegionArrays.lean ====
/-
  What the kernel's five result arrays hold when the region ends.

  Every accumulator's block is the whole of its array at every step, and it is written back once, after the last of
  the 64 steps.  So each result array ends holding what its accumulator held after step 63: entry by entry the sum
  over all 64 steps of the steps' contributions.
-/
import proofs.«160371_j7275674599912_1_alg».proof.Proof.Accumulated
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Region
open Cert.KernelIdeal Cert.KernelIdeal.Gen Idealize.ShloMosaic.ValueIdx Cert.RunningSum Cert.KernelIdeal.Accum

variable (m : (ℓ : Loc nD τ sig) → Buf (Elt Ideal) ℓ)

/- tl is the last grid step, tl = 63.  What the accumulators hold after it is read through the induction over the
   steps. -/
variable (tl : Fin cfg0.N) (htl : tl.val = 63)

include htl in
theorem steps_eq : cfg0.N = tl.val + 1 := by rw [htl]; exact N_0

/-- The accumulators' contents after the last step, as contents of their arrays. -/
abbrev acc2 (c : Dev nD) : Buf (Elt Ideal) ((c : Thread nD τ).loc main_v4_0) := (outsAt0 m c tl.val tl.isLt).1
abbrev acc3 (c : Dev nD) : Buf (Elt Ideal) ((c : Thread nD τ).loc main_v4_1) := (outsAt0 m c tl.val tl.isLt).2.1
abbrev acc4 (c : Dev nD) : Buf (Elt Ideal) ((c : Thread nD τ).loc main_v4_2) := (outsAt0 m c tl.val tl.isLt).2.2.1
abbrev acc5 (c : Dev nD) : Buf (Elt Ideal) ((c : Thread nD τ).loc main_v4_3) := (outsAt0 m c tl.val tl.isLt).2.2.2.1
abbrev acc6 (c : Dev nD) : Buf (Elt Ideal) ((c : Thread nD τ).loc main_v4_4) := (outsAt0 m c tl.val tl.isLt).2.2.2.2

/-! ## The last contents, entry by entry: the sums over all the steps -/

include htl in
theorem acc2_apply (c : Dev nD) (p q : Fin 1024) : acc2 m tl c (ix2 p q) = ∑ t : Fin cfg0.N, crossOf m c p q t :=
  (cross_at m c p q tl.val tl.isLt).trans (upTo_last _ tl.val _ (steps_eq tl htl))
include htl in
theorem acc3_apply (c : Dev nD) (u : Fin 1) (q : Fin 1024) : acc3 m tl c (ix2 u q) = ∑ t : Fin cfg0.N, sumcOf m c q t :=
  (sumc_at m c u q tl.val tl.isLt).trans (upTo_last _ tl.val _ (steps_eq tl htl))
include htl in
theorem acc4_apply (c : Dev nD) (u : Fin 1) (q : Fin 1024) : acc4 m tl c (ix2 u q) = ∑ t : Fin cfg0.N, sumlOf m c q t :=
  (suml_at m c u q tl.val tl.isLt).trans (upTo_last _ tl.val _ (steps_eq tl htl))
include htl in
theorem acc5_apply (c : Dev nD) (u : Fin 1) (q : Fin 1024) : acc5 m tl c (ix2 u q) = ∑ t : Fin cfg0.N, sqcOf m c q t :=
  (sqc_at m c u q tl.val tl.isLt).trans (upTo_last _ tl.val _ (steps_eq tl htl))
include htl in
theorem acc6_apply (c : Dev nD) (u : Fin 1) (q : Fin 1024) : acc6 m tl c (ix2 u q) = ∑ t : Fin cfg0.N, sqlOf m c q t :=
  (sql_at m c u q tl.val tl.isLt).trans (upTo_last _ tl.val _ (steps_eq tl htl))

/-- There is a last step. -/
theorem exists_last : ∃ t : Fin cfg0.N, t.val = 63 := ⟨⟨63, by rw [show cfg0.N = 64 from N_0]; decide⟩, rfl⟩

/-! ## The arrays when the region ends -/

/-- Window 2's block sits at offset zero and is the whole array, at every step — decided over the grid. -/
theorem blk2 : ∀ t : Fin cfg0.N, (win0_2.index t 0 * win0_2.size 0 = 0 ∧ win0_2.xsize (grid0.coords t) 0 = 1024)
    ∧ (win0_2.index t 1 * win0_2.size 1 = 0 ∧ win0_2.xsize (grid0.coords t) 1 = 1024) :=
  (by decide +kernel : ∀ t : Fin grid0.N, (win0_2.index t 0 * win0_2.size 0 = 0 ∧ win0_2.xsize (grid0.coords t) 0 = 1024)
    ∧ (win0_2.index t 1 * win0_2.size 1 = 0 ∧ win0_2.xsize (grid0.coords t) 1 = 1024))

include htl in
/-- The one write-back of window 2, after the last step, writes the accumulator's last contents: its block is the whole array. -/
theorem flushed2 (c : Dev nD) (t : Fin cfg0.N) (hf : (cfg0.win 2).flush t = true) :
    (dats m 0 c).flushed 2 t = ((cfg0.win 2).blk t).view.read (Elt Ideal) (acc2 m tl c) := by
  have h63 : t.val = 63 := by
    have h1 := (flush0_2 t).mp hf
    have h2 := lt_of_lt_of_eq t.isLt (show cfg0.N = 64 from N_0)
    omega
  obtain rfl : t = tl := Fin.ext (h63.trans htl.symm)
  show (cfg0.win 2).cut (grid0.coords t) ((dats m 0 c).after 2 t) = _
  rw [after0_2]
  have hz' : (fun a => win0_2.index t a * main_v4_0.ty.shape.size a) = fun _ => 0 :=
    funext fun a => by
      match a with
      | ⟨0, _⟩ => exact (blk2 t).1.1
      | ⟨1, _⟩ => exact (blk2 t).2.1
  exact (Memref.read_access_unit_zero (Elt Ideal) main_v4_0 hz' (fun a => by rw [congrFun hz' a]; simp) (acc2 m t c)).symm

include htl in
/-- So the array of window 2 ends holding the accumulator's last contents. -/
theorem final2 (c : Dev nD) : (dats m 0 c).arrAt 2 cfg0.N = acc2 m tl c :=
  (dats m 0 c).arrAt_eq_of_cover 2 (acc2 m tl c) (flushed2 m tl htl c) fun i =>
    ⟨tl, (flush0_2 tl).mpr (by rw [htl]), by
      show i ∈ ((View.whole main_v4_0).slice (win0_2.rect tl)).set
      rw [View.set_slice_whole, Rect.mem_set_unit]
      intro a
      have h0 : (i 0 : Nat) < 1024 := (i 0).isLt
      have h1 : (i 1 : Nat) < 1024 := (i 1).isLt
      match a with
      | ⟨0, _⟩ =>
        show win0_2.index tl 0 * win0_2.size 0 ≤ (i 0 : Nat)
          ∧ (i 0 : Nat) < win0_2.index tl 0 * win0_2.size 0 + win0_2.xsize (grid0.coords tl) 0
        rw [(blk2 tl).1.1, (blk2 tl).1.2]
        omega
      | ⟨1, _⟩ =>
        show win0_2.index tl 1 * win0_2.size 1 ≤ (i 1 : Nat)
          ∧ (i 1 : Nat) < win0_2.index tl 1 * win0_2.size 1 + win0_2.xsize (grid0.coords tl) 1
        rw [(blk2 tl).2.1, (blk2 tl).2.2]
        omega⟩

/-- Window 3's block sits at offset zero and is the whole array, at every step — decided over the grid. -/
theorem blk3 : ∀ t : Fin cfg0.N, (win0_3.index t 0 * win0_3.size 0 = 0 ∧ win0_3.xsize (grid0.coords t) 0 = 1)
    ∧ (win0_3.index t 1 * win0_3.size 1 = 0 ∧ win0_3.xsize (grid0.coords t) 1 = 1024) :=
  (by decide +kernel : ∀ t : Fin grid0.N, (win0_3.index t 0 * win0_3.size 0 = 0 ∧ win0_3.xsize (grid0.coords t) 0 = 1)
    ∧ (win0_3.index t 1 * win0_3.size 1 = 0 ∧ win0_3.xsize (grid0.coords t) 1 = 1024))

include htl in
/-- The one write-back of window 3, after the last step, writes the accumulator's last contents: its block is the whole array. -/
theorem flushed3 (c : Dev nD) (t : Fin cfg0.N) (hf : (cfg0.win 3).flush t = true) :
    (dats m 0 c).flushed 3 t = ((cfg0.win 3).blk t).view.read (Elt Ideal) (acc3 m tl c) := by
  have h63 : t.val = 63 := by
    have h1 := (flush0_3 t).mp hf
    have h2 := lt_of_lt_of_eq t.isLt (show cfg0.N = 64 from N_0)
    omega
  obtain rfl : t = tl := Fin.ext (h63.trans htl.symm)
  show (cfg0.win 3).cut (grid0.coords t) ((dats m 0 c).after 3 t) = _
  rw [after0_3]
  have hz' : (fun a => win0_3.index t a * main_v4_1.ty.shape.size a) = fun _ => 0 :=
    funext fun a => by
      match a with
      | ⟨0, _⟩ => exact (blk3 t).1.1
      | ⟨1, _⟩ => exact (blk3 t).2.1
  exact (Memref.read_access_unit_zero (Elt Ideal) main_v4_1 hz' (fun a => by rw [congrFun hz' a]; simp) (acc3 m t c)).symm

include htl in
/-- So the array of window 3 ends holding the accumulator's last contents. -/
theorem final3 (c : Dev nD) : (dats m 0 c).arrAt 3 cfg0.N = acc3 m tl c :=
  (dats m 0 c).arrAt_eq_of_cover 3 (acc3 m tl c) (flushed3 m tl htl c) fun i =>
    ⟨tl, (flush0_3 tl).mpr (by rw [htl]), by
      show i ∈ ((View.whole main_v4_1).slice (win0_3.rect tl)).set
      rw [View.set_slice_whole, Rect.mem_set_unit]
      intro a
      have h0 : (i 0 : Nat) < 1 := (i 0).isLt
      have h1 : (i 1 : Nat) < 1024 := (i 1).isLt
      match a with
      | ⟨0, _⟩ =>
        show win0_3.index tl 0 * win0_3.size 0 ≤ (i 0 : Nat)
          ∧ (i 0 : Nat) < win0_3.index tl 0 * win0_3.size 0 + win0_3.xsize (grid0.coords tl) 0
        rw [(blk3 tl).1.1, (blk3 tl).1.2]
        omega
      | ⟨1, _⟩ =>
        show win0_3.index tl 1 * win0_3.size 1 ≤ (i 1 : Nat)
          ∧ (i 1 : Nat) < win0_3.index tl 1 * win0_3.size 1 + win0_3.xsize (grid0.coords tl) 1
        rw [(blk3 tl).2.1, (blk3 tl).2.2]
        omega⟩

/-- Window 4's block sits at offset zero and is the whole array, at every step — decided over the grid. -/
theorem blk4 : ∀ t : Fin cfg0.N, (win0_4.index t 0 * win0_4.size 0 = 0 ∧ win0_4.xsize (grid0.coords t) 0 = 1)
    ∧ (win0_4.index t 1 * win0_4.size 1 = 0 ∧ win0_4.xsize (grid0.coords t) 1 = 1024) :=
  (by decide +kernel : ∀ t : Fin grid0.N, (win0_4.index t 0 * win0_4.size 0 = 0 ∧ win0_4.xsize (grid0.coords t) 0 = 1)
    ∧ (win0_4.index t 1 * win0_4.size 1 = 0 ∧ win0_4.xsize (grid0.coords t) 1 = 1024))

include htl in
/-- The one write-back of window 4, after the last step, writes the accumulator's last contents: its block is the whole array. -/
theorem flushed4 (c : Dev nD) (t : Fin cfg0.N) (hf : (cfg0.win 4).flush t = true) :
    (dats m 0 c).flushed 4 t = ((cfg0.win 4).blk t).view.read (Elt Ideal) (acc4 m tl c) := by
  have h63 : t.val = 63 := by
    have h1 := (flush0_4 t).mp hf
    have h2 := lt_of_lt_of_eq t.isLt (show cfg0.N = 64 from N_0)
    omega
  obtain rfl : t = tl := Fin.ext (h63.trans htl.symm)
  show (cfg0.win 4).cut (grid0.coords t) ((dats m 0 c).after 4 t) = _
  rw [after0_4]
  have hz' : (fun a => win0_4.index t a * main_v4_2.ty.shape.size a) = fun _ => 0 :=
    funext fun a => by
      match a with
      | ⟨0, _⟩ => exact (blk4 t).1.1
      | ⟨1, _⟩ => exact (blk4 t).2.1
  exact (Memref.read_access_unit_zero (Elt Ideal) main_v4_2 hz' (fun a => by rw [congrFun hz' a]; simp) (acc4 m t c)).symm

include htl in
/-- So the array of window 4 ends holding the accumulator's last contents. -/
theorem final4 (c : Dev nD) : (dats m 0 c).arrAt 4 cfg0.N = acc4 m tl c :=
  (dats m 0 c).arrAt_eq_of_cover 4 (acc4 m tl c) (flushed4 m tl htl c) fun i =>
    ⟨tl, (flush0_4 tl).mpr (by rw [htl]), by
      show i ∈ ((View.whole main_v4_2).slice (win0_4.rect tl)).set
      rw [View.set_slice_whole, Rect.mem_set_unit]
      intro a
      have h0 : (i 0 : Nat) < 1 := (i 0).isLt
      have h1 : (i 1 : Nat) < 1024 := (i 1).isLt
      match a with
      | ⟨0, _⟩ =>
        show win0_4.index tl 0 * win0_4.size 0 ≤ (i 0 : Nat)
          ∧ (i 0 : Nat) < win0_4.index tl 0 * win0_4.size 0 + win0_4.xsize (grid0.coords tl) 0
        rw [(blk4 tl).1.1, (blk4 tl).1.2]
        omega
      | ⟨1, _⟩ =>
        show win0_4.index tl 1 * win0_4.size 1 ≤ (i 1 : Nat)
          ∧ (i 1 : Nat) < win0_4.index tl 1 * win0_4.size 1 + win0_4.xsize (grid0.coords tl) 1
        rw [(blk4 tl).2.1, (blk4 tl).2.2]
        omega⟩

/-- Window 5's block sits at offset zero and is the whole array, at every step — decided over the grid. -/
theorem blk5 : ∀ t : Fin cfg0.N, (win0_5.index t 0 * win0_5.size 0 = 0 ∧ win0_5.xsize (grid0.coords t) 0 = 1)
    ∧ (win0_5.index t 1 * win0_5.size 1 = 0 ∧ win0_5.xsize (grid0.coords t) 1 = 1024) :=
  (by decide +kernel : ∀ t : Fin grid0.N, (win0_5.index t 0 * win0_5.size 0 = 0 ∧ win0_5.xsize (grid0.coords t) 0 = 1)
    ∧ (win0_5.index t 1 * win0_5.size 1 = 0 ∧ win0_5.xsize (grid0.coords t) 1 = 1024))

include htl in
/-- The one write-back of window 5, after the last step, writes the accumulator's last contents: its block is the whole array. -/
theorem flushed5 (c : Dev nD) (t : Fin cfg0.N) (hf : (cfg0.win 5).flush t = true) :
    (dats m 0 c).flushed 5 t = ((cfg0.win 5).blk t).view.read (Elt Ideal) (acc5 m tl c) := by
  have h63 : t.val = 63 := by
    have h1 := (flush0_5 t).mp hf
    have h2 := lt_of_lt_of_eq t.isLt (show cfg0.N = 64 from N_0)
    omega
  obtain rfl : t = tl := Fin.ext (h63.trans htl.symm)
  show (cfg0.win 5).cut (grid0.coords t) ((dats m 0 c).after 5 t) = _
  rw [after0_5]
  have hz' : (fun a => win0_5.index t a * main_v4_3.ty.shape.size a) = fun _ => 0 :=
    funext fun a => by
      match a with
      | ⟨0, _⟩ => exact (blk5 t).1.1
      | ⟨1, _⟩ => exact (blk5 t).2.1
  exact (Memref.read_access_unit_zero (Elt Ideal) main_v4_3 hz' (fun a => by rw [congrFun hz' a]; simp) (acc5 m t c)).symm

include htl in
/-- So the array of window 5 ends holding the accumulator's last contents. -/
theorem final5 (c : Dev nD) : (dats m 0 c).arrAt 5 cfg0.N = acc5 m tl c :=
  (dats m 0 c).arrAt_eq_of_cover 5 (acc5 m tl c) (flushed5 m tl htl c) fun i =>
    ⟨tl, (flush0_5 tl).mpr (by rw [htl]), by
      show i ∈ ((View.whole main_v4_3).slice (win0_5.rect tl)).set
      rw [View.set_slice_whole, Rect.mem_set_unit]
      intro a
      have h0 : (i 0 : Nat) < 1 := (i 0).isLt
      have h1 : (i 1 : Nat) < 1024 := (i 1).isLt
      match a with
      | ⟨0, _⟩ =>
        show win0_5.index tl 0 * win0_5.size 0 ≤ (i 0 : Nat)
          ∧ (i 0 : Nat) < win0_5.index tl 0 * win0_5.size 0 + win0_5.xsize (grid0.coords tl) 0
        rw [(blk5 tl).1.1, (blk5 tl).1.2]
        omega
      | ⟨1, _⟩ =>
        show win0_5.index tl 1 * win0_5.size 1 ≤ (i 1 : Nat)
          ∧ (i 1 : Nat) < win0_5.index tl 1 * win0_5.size 1 + win0_5.xsize (grid0.coords tl) 1
        rw [(blk5 tl).2.1, (blk5 tl).2.2]
        omega⟩

/-- Window 6's block sits at offset zero and is the whole array, at every step — decided over the grid. -/
theorem blk6 : ∀ t : Fin cfg0.N, (win0_6.index t 0 * win0_6.size 0 = 0 ∧ win0_6.xsize (grid0.coords t) 0 = 1)
    ∧ (win0_6.index t 1 * win0_6.size 1 = 0 ∧ win0_6.xsize (grid0.coords t) 1 = 1024) :=
  (by decide +kernel : ∀ t : Fin grid0.N, (win0_6.index t 0 * win0_6.size 0 = 0 ∧ win0_6.xsize (grid0.coords t) 0 = 1)
    ∧ (win0_6.index t 1 * win0_6.size 1 = 0 ∧ win0_6.xsize (grid0.coords t) 1 = 1024))

include htl in
/-- The one write-back of window 6, after the last step, writes the accumulator's last contents: its block is the whole array. -/
theorem flushed6 (c : Dev nD) (t : Fin cfg0.N) (hf : (cfg0.win 6).flush t = true) :
    (dats m 0 c).flushed 6 t = ((cfg0.win 6).blk t).view.read (Elt Ideal) (acc6 m tl c) := by
  have h63 : t.val = 63 := by
    have h1 := (flush0_6 t).mp hf
    have h2 := lt_of_lt_of_eq t.isLt (show cfg0.N = 64 from N_0)
    omega
  obtain rfl : t = tl := Fin.ext (h63.trans htl.symm)
  show (cfg0.win 6).cut (grid0.coords t) ((dats m 0 c).after 6 t) = _
  rw [after0_6]
  have hz' : (fun a => win0_6.index t a * main_v4_4.ty.shape.size a) = fun _ => 0 :=
    funext fun a => by
      match a with
      | ⟨0, _⟩ => exact (blk6 t).1.1
      | ⟨1, _⟩ => exact (blk6 t).2.1
  exact (Memref.read_access_unit_zero (Elt Ideal) main_v4_4 hz' (fun a => by rw [congrFun hz' a]; simp) (acc6 m t c)).symm

include htl in
/-- So the array of window 6 ends holding the accumulator's last contents. -/
theorem final6 (c : Dev nD) : (dats m 0 c).arrAt 6 cfg0.N = acc6 m tl c :=
  (dats m 0 c).arrAt_eq_of_cover 6 (acc6 m tl c) (flushed6 m tl htl c) fun i =>
    ⟨tl, (flush0_6 tl).mpr (by rw [htl]), by
      show i ∈ ((View.whole main_v4_4).slice (win0_6.rect tl)).set
      rw [View.set_slice_whole, Rect.mem_set_unit]
      intro a
      have h0 : (i 0 : Nat) < 1 := (i 0).isLt
      have h1 : (i 1 : Nat) < 1024 := (i 1).isLt
      match a with
      | ⟨0, _⟩ =>
        show win0_6.index tl 0 * win0_6.size 0 ≤ (i 0 : Nat)
          ∧ (i 0 : Nat) < win0_6.index tl 0 * win0_6.size 0 + win0_6.xsize (grid0.coords tl) 0
        rw [(blk6 tl).1.1, (blk6 tl).1.2]
        omega
      | ⟨1, _⟩ =>
        show win0_6.index tl 1 * win0_6.size 1 ≤ (i 1 : Nat)
          ∧ (i 1 : Nat) < win0_6.index tl 1 * win0_6.size 1 + win0_6.xsize (grid0.coords tl) 1
        rw [(blk6 tl).2.1, (blk6 tl).2.2]
        omega⟩

end Cert.KernelIdeal.Region
end
-- ==== Proof.PaddedRows.lean ====
/-
  The two row arrays the kernel streams, as functions of the input x : [32768, F].

  Before the kernel is launched the host builds the current rows x[1:] and the lagged rows x[:-1], each 32767 × F,
  and pads each with one row of zeros at the end, back to 32768 rows.  So row k < 32767 of the first array is row
  k + 1 of x, row k < 32767 of the second is row k of x, and the last row of both is zero (the padding value is the
  integer 0 converted to a float).
-/
import proofs.«160371_j7275674599912_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Padded
open Cert.KernelIdeal Cert.KernelIdeal.Gen Idealize.ShloMosaic.ValueIdx

variable (m : (ℓ : Loc nD τ sig) → Buf (Elt Ideal) ℓ)

/-- The input array on core c. -/
abbrev xin (c : Dev nD) : Vec Ideal S32768x1024 .f32 := m ((c : Thread nD τ).loc main_arg0)

/-- The padding value: the integer zero as a float. -/
abbrev padZero : FVec Ideal S_ .f32 := sitofp (F := Ideal) .f32 (constantI S_ 32 0#32)

/-- The padded current rows as the kernel's launch finds them. -/
theorem cur_eq (c : Dev nD) : (V m c main_v1 : S32768x1024.Idx → EReal)
    = pad S32768x1024 ![0, 0] ![1, 0] ![0, 0]
        (extractStridedSlice S32767x1024 ![1, 0] (xin m c) slices_S32768x1024_S32767x1024_1_0) padZero
        pads_S32767x1024_S32768x1024_010_000 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The padded lagged rows as the kernel's launch finds them. -/
theorem lag_eq (c : Dev nD) : (V m c main_v3 : S32768x1024.Idx → EReal)
    = pad S32768x1024 ![0, 0] ![1, 0] ![0, 0]
        (extractStridedSlice S32767x1024 ![0, 0] (xin m c) slices_S32768x1024_S32767x1024_0_0) padZero
        pads_S32767x1024_S32768x1024_010_000 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The padding value is zero. -/
theorem padZero_apply (j : S_.Idx) : padZero j = (0 : EReal) := by
  show (((0#32 : BitVec 32).toInt : ℝ) : EReal) = 0
  simp

/-- Row k < 32767 of the padded current rows is row k + 1 of x. -/
theorem cur_row (c : Dev nD) (k : Fin 32767) (i : Fin 1024) :
    (V m c main_v1 : S32768x1024.Idx → EReal) (ix2 k.castSucc i) = xin m c (ix2 k.succ i) := by
  refine (congrFun (cur_eq m c) _).trans ?_
  refine (pad_apply_of_inside ![0, 0] ![1, 0] ![0, 0] _ padZero pads_S32767x1024_S32768x1024_010_000 h_S_
    (ix2 k.castSucc i) (ix2 k i) (fun a => ?_)).trans ?_
  · match a with
    | ⟨0, _⟩ => show k.val = 0 + k.val * (0 + 1); omega
    | ⟨1, _⟩ => show i.val = 0 + i.val * (0 + 1); omega
  refine extractStridedSlice_apply ![1, 0] (xin m c) slices_S32768x1024_S32767x1024_1_0 (ix2 k i) (ix2 k.succ i) (fun a => ?_)
  match a with
  | ⟨0, _⟩ => show k.val + 1 = 1 + k.val; omega
  | ⟨1, _⟩ => show i.val = 0 + i.val; omega

/-- Row k < 32767 of the padded lagged rows is row k of x. -/
theorem lag_row (c : Dev nD) (k : Fin 32767) (i : Fin 1024) :
    (V m c main_v3 : S32768x1024.Idx → EReal) (ix2 k.castSucc i) = xin m c (ix2 k.castSucc i) := by
  refine (congrFun (lag_eq m c) _).trans ?_
  refine (pad_apply_of_inside ![0, 0] ![1, 0] ![0, 0] _ padZero pads_S32767x1024_S32768x1024_010_000 h_S_
    (ix2 k.castSucc i) (ix2 k i) (fun a => ?_)).trans ?_
  · match a with
    | ⟨0, _⟩ => show k.val = 0 + k.val * (0 + 1); omega
    | ⟨1, _⟩ => show i.val = 0 + i.val * (0 + 1); omega
  refine extractStridedSlice_apply ![0, 0] (xin m c) slices_S32768x1024_S32767x1024_0_0 (ix2 k i) (ix2 k.castSucc i) (fun a => ?_)
  match a with
  | ⟨0, _⟩ => show k.val = 0 + k.val; omega
  | ⟨1, _⟩ => show i.val = 0 + i.val; omega

/-- The last row of a padded array is zero. -/
theorem pad_last (y : FVec Ideal S32767x1024 .f32) (i : Fin 1024) :
    pad S32768x1024 ![0, 0] ![1, 0] ![0, 0] y padZero pads_S32767x1024_S32768x1024_010_000 h_S_
      (ix2 (Fin.last 32767) i) = (0 : EReal) := by
  refine (pad_apply_of_not_inside ![0, 0] ![1, 0] ![0, 0] y padZero pads_S32767x1024_S32768x1024_010_000 h_S_
    (ix2 (Fin.last 32767) i) (0 : Fin 2) ?_).trans (padZero_apply _)
  show ¬(0 ≤ 32767 ∧ (32767 - 0) % (0 + 1) = 0 ∧ (32767 - 0) / (0 + 1) < 32767)
  omega

theorem cur_last (c : Dev nD) (i : Fin 1024) :
    (V m c main_v1 : S32768x1024.Idx → EReal) (ix2 (Fin.last 32767) i) = (0 : EReal) :=
  (congrFun (cur_eq m c) _).trans (pad_last _ i)

theorem lag_last (c : Dev nD) (i : Fin 1024) :
    (V m c main_v3 : S32768x1024.Idx → EReal) (ix2 (Fin.last 32767) i) = (0 : EReal) :=
  (congrFun (lag_eq m c) _).trans (pad_last _ i)

end Cert.KernelIdeal.Padded
end
-- ==== Proof.LibBlockedSum.lean ====
/-
  A reusable lemma: a sum over the rows of an array taken block by block is the sum over all the rows.

  When n = a·b rows are cut into a consecutive blocks of b rows, row r of block t being row b·t + r, summing a
  function of the row first inside each block and then over the blocks is summing it over all n rows.  Stated in any
  commutative additive monoid, with the block count allowed to be a number N only known to equal a.
-/
import Mathlib.Algebra.BigOperators.Fin
import Mathlib.Logic.Equiv.Fin.Basic

namespace Cert.BlockedSum

variable {M : Type} [AddCommMonoid M]

theorem sum_blocks {N a b n : ℕ} (hN : N = a) (hn : a * b = n) (F : Fin n → M) (row : Fin N → Fin b → Fin n)
    (hrow : ∀ t r, (row t r).val = b * t.val + r.val) :
    ∑ t : Fin N, ∑ r : Fin b, F (row t r) = ∑ k : Fin n, F k := by
  subst hN
  subst hn
  rw [← Fintype.sum_prod_type']
  refine Fintype.sum_equiv finProdFinEquiv _ _ fun x => congrArg F (Fin.ext ?_)
  rw [hrow, finProdFinEquiv_apply_val]
  omega

end Cert.BlockedSum
-- ==== Proof.Totals.lean ====
/-
  The steps' contributions summed over the whole grid, as sums over the 32767 rows of the lagged pair.

  Step t stages rows 512·t … 512·t + 511 of the two padded arrays, so summing a step's contribution over the 64
  steps sums over all 32768 padded rows; the last padded row is zero in both arrays and adds nothing, and row
  k < 32767 is x[k + 1] in the current rows and x[k] in the lagged rows.
-/
import proofs.«160371_j7275674599912_1_alg».proof.Proof.Accumulated
import proofs.«160371_j7275674599912_1_alg».proof.Proof.PaddedRows
import proofs.«160371_j7275674599912_1_alg».proof.Proof.LibBlockedSum

set_option maxRecDepth 16384

noncomputable section

open Idealize.ShloMosaic Idealize.ShloMosaic.TcCoe Idealize.SL.Sem
open Idealize.ShloMosaic.Pipeline (Dat)

namespace Cert.KernelIdeal.Totals
open Cert.KernelIdeal Cert.KernelIdeal.Gen Idealize.ShloMosaic.ValueIdx Cert.KernelIdeal.Accum Cert.KernelIdeal.Padded
open Cert.BlockedSum

variable (m : (ℓ : Loc nD τ sig) → Buf (Elt Ideal) ℓ)

/-- The block index of the two input windows at step t is (t, 0) — decided over the grid. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- Row r of step t's block, as a row of the padded arrays. -/
def rowOf (t : Fin cfg0.N) (r : Fin 512) : Fin 32768 :=
  ⟨512 * t.val + r.val, by
    have h1 := lt_of_lt_of_eq t.isLt (show cfg0.N = 64 from N_0)
    have h2 := r.isLt
    omega⟩

/-- The padded arrays, as the launch finds them. -/
abbrev curP (c : Dev nD) : S32768x1024.Idx → EReal := V m c main_v1
abbrev lagP (c : Dev nD) : S32768x1024.Idx → EReal := V m c main_v3

/-- Step t's block of current rows reads the padded current rows at row 512·t + r. -/
theorem xb_apply (c : Dev nD) (t : Fin cfg0.N) (r : Fin 512) (i : Fin 1024) :
    xb m c t (ix2 r i) = curP m c (ix2 (rowOf t r) i) := by
  have hi := idx0 t
  show iblk m c 0 t (ix2 r i) = _
  unfold iblk
  rw [View.read_apply]
  show V m c main_v1 _ = V m c main_v1 _
  congr 1
  funext a
  apply Fin.ext
  match a with
  | ⟨0, _⟩ => show win0_0.index t 0 * 512 + 1 * r.val = 512 * t.val + r.val; rw [hi.1]; omega
  | ⟨1, _⟩ => show win0_0.index t 1 * 1024 + 1 * i.val = i.val; rw [hi.2]; omega

/-- Step t's block of lagged rows reads the padded lagged rows at row 512·t + r. -/
theorem yb_apply (c : Dev nD) (t : Fin cfg0.N) (r : Fin 512) (i : Fin 1024) :
    yb m c t (ix2 r i) = lagP m c (ix2 (rowOf t r) i) := by
  have hi := idx1 t
  show iblk m c 1 t (ix2 r i) = _
  unfold iblk
  rw [View.read_apply]
  show V m c main_v3 _ = V m c main_v3 _
  congr 1
  funext a
  apply Fin.ext
  match a with
  | ⟨0, _⟩ => show win0_1.index t 0 * 512 + 1 * r.val = 512 * t.val + r.val; rw [hi.1]; omega
  | ⟨1, _⟩ => show win0_1.index t 1 * 1024 + 1 * i.val = i.val; rw [hi.2]; omega

/-- A sum over the steps of sums over a step's rows is the sum over the 32767 rows before the zero row, for a
    function of the row that vanishes at the last row. -/
theorem sum_steps (G : Fin 32768 → EReal) (hlast : G (Fin.last 32767) = 0) :
    ∑ t : Fin cfg0.N, ∑ r : Fin 512, G (rowOf t r) = ∑ k : Fin 32767, G k.castSucc := by
  rw [sum_blocks (show cfg0.N = 64 from N_0) (show 64 * 512 = 32768 from rfl) G rowOf (fun _ _ => rfl),
    Fin.sum_univ_castSucc, hlast, add_zero]

theorem cross_total (c : Dev nD) (p q : Fin 1024) :
    ∑ t : Fin cfg0.N, crossOf m c p q t = ∑ k : Fin 32767, xin m c (ix2 k.succ p) * xin m c (ix2 k.castSucc q) := by
  have e : ∀ t, crossOf m c p q t = ∑ r : Fin 512, (fun k : Fin 32768 => curP m c (ix2 k p) * lagP m c (ix2 k q)) (rowOf t r) :=
    fun t => Finset.sum_congr rfl fun r _ => by rw [xb_apply, yb_apply]
  rw [Finset.sum_congr rfl fun t _ => e t]
  refine (sum_steps (fun k : Fin 32768 => curP m c (ix2 k p) * lagP m c (ix2 k q)) (by dsimp only [curP, lagP]; rw [cur_last, zero_mul])).trans ?_
  exact Finset.sum_congr rfl fun k _ => by dsimp only [curP, lagP]; rw [cur_row, lag_row]

theorem sumc_total (c : Dev nD) (q : Fin 1024) :
    ∑ t : Fin cfg0.N, sumcOf m c q t = ∑ k : Fin 32767, xin m c (ix2 k.succ q) := by
  have e : ∀ t, sumcOf m c q t = ∑ r : Fin 512, (fun k : Fin 32768 => curP m c (ix2 k q)) (rowOf t r) :=
    fun t => Finset.sum_congr rfl fun r _ => by rw [xb_apply]
  rw [Finset.sum_congr rfl fun t _ => e t]
  refine (sum_steps (fun k : Fin 32768 => curP m c (ix2 k q)) (cur_last m c q)).trans ?_
  exact Finset.sum_congr rfl fun k _ => cur_row m c k q

theorem suml_total (c : Dev nD) (q : Fin 1024) :
    ∑ t : Fin cfg0.N, sumlOf m c q t = ∑ k : Fin 32767, xin m c (ix2 k.castSucc q) := by
  have e : ∀ t, sumlOf m c q t = ∑ r : Fin 512, (fun k : Fin 32768 => lagP m c (ix2 k q)) (rowOf t r) :=
    fun t => Finset.sum_congr rfl fun r _ => by rw [yb_apply]
  rw [Finset.sum_congr rfl fun t _ => e t]
  refine (sum_steps (fun k : Fin 32768 => lagP m c (ix2 k q)) (lag_last m c q)).trans ?_
  exact Finset.sum_congr rfl fun k _ => lag_row m c k q

theorem sqc_total (c : Dev nD) (q : Fin 1024) :
    ∑ t : Fin cfg0.N, sqcOf m c q t = ∑ k : Fin 32767, xin m c (ix2 k.succ q) * xin m c (ix2 k.succ q) := by
  have e : ∀ t, sqcOf m c q t = ∑ r : Fin 512, (fun k : Fin 32768 => curP m c (ix2 k q) * curP m c (ix2 k q)) (rowOf t r) :=
    fun t => Finset.sum_congr rfl fun r _ => by rw [xb_apply]
  rw [Finset.sum_congr rfl fun t _ => e t]
  refine (sum_steps (fun k : Fin 32768 => curP m c (ix2 k q) * curP m c (ix2 k q)) (by dsimp only [curP]; rw [cur_last, zero_mul])).trans ?_
  exact Finset.sum_congr rfl fun k _ => by dsimp only [curP]; rw [cur_row]

theorem sql_total (c : Dev nD) (q : Fin 1024) :
    ∑ t : Fin cfg0.N, sqlOf m c q t = ∑ k : Fin 32767, xin m c (ix2 k.castSucc q) * xin m c (ix2 k.castSucc q) := by
  have e : ∀ t, sqlOf m c q t = ∑ r : Fin 512, (fun k : Fin 32768 => lagP m c (ix2 k q) * lagP m c (ix2 k q)) (rowOf t r) :=
    fun t => Finset.sum_congr rfl fun r _ => by rw [yb_apply]
  rw [Finset.sum_congr rfl fun t _ => e t]
  refine (sum_steps (fun k : Fin 32768 => lagP m c (ix2 k q) * lagP m c (ix2 k q)) (by dsimp only [lagP]; rw [lag_last, zero_mul])).trans ?_
  exact Finset.sum_congr rfl fun k _ => by dsimp only [lagP]; rw [lag_row]

end Cert.KernelIdeal.Totals
end
-- ==== Proof.CorrTail.lean ====
/-
  The last stretch of the computation, shared by the two programs: from the F × F matrix of cross products cov and
  the two F-vectors of squared norms nc and nl to the mean absolute correlation over the off-diagonal pairs,

      ( Σ_{i,j} |cov[i,j] / sqrt(nc[i]·nl[j])| · (1 − [i = j]) ) / (F·(F − 1)),

  spelled with the host operations both programs use for it (the two norms spread over the matrix by two broadcasts
  each, the mask 1 − eye built from two iotas, one sum over both axes, the quotient by the constant F·(F − 1)).
  Both programs compute this same function; they differ only in how they obtain cov, nc and nl.  The side
  conditions of the operations are taken as hypotheses, so that either program can supply its own.
-/
import Idealize.ShloMosaic.PureOps.Ideal
import Idealize.ShloMosaic.Lib.ValueIdx

noncomputable section

namespace Cert.LagCorr

open Idealize.ShloMosaic

abbrev SFF : Shape := ⟨2, ![1024, 1024]⟩
abbrev SF : Shape := ⟨1, ![1024]⟩
abbrev SF1 : Shape := ⟨2, ![1024, 1]⟩
abbrev S1F : Shape := ⟨2, ![1, 1024]⟩
abbrev S0 : Shape := ⟨0, ![]⟩

/-- The side conditions of the operations of the last stretch. -/
structure TailFacts : Prop where
  col : SF.BroadcastsInDim SF1 ![0]
  row : SF.BroadcastsInDim S1F ![1]
  colFF : SF1.BroadcastsInDim SFF ![0, 1]
  rowFF : S1F.BroadcastsInDim SFF ![0, 1]
  splat : S0.BroadcastsInDim SFF (![] : Fin 0 → Fin SFF.rank)
  red : SFF.ReducesTo [0, 1] S0
  pos : 0 < S0.numel

/-- The mask of the off-diagonal pairs, 1 − eye(F). -/
def offDiag (h : TailFacts) : FVec Ideal SFF .f32 :=
  subf (broadcastInDim SFF ![] h.splat (constant (F := Ideal) S0 .f32 0x3F800000#32))
    (uitofp (F := Ideal) .f32 (cmpi .eq (addi (iotaInDim SFF 32 0) (broadcastInDim SFF ![] h.splat (constantI S0 32 0#32)))
      (iotaInDim SFF 32 1)))

/-- The mean absolute correlation over the off-diagonal pairs, from the cross products and the squared norms. -/
def corrTail (h : TailFacts) (cov : FVec Ideal SFF .f32) (nc nl : FVec Ideal SF .f32) : FVec Ideal S0 .f32 :=
  Host.divf
    (Host.reduceAdd
      (mulf
        (Host.absf (Host.divf cov (Host.sqrt (mulf
          (broadcastInDim SFF ![0, 1] h.colFF (broadcastInDim SF1 ![0] h.col nc))
          (broadcastInDim SFF ![0, 1] h.rowFF (broadcastInDim S1F ![1] h.row nl))))))
        (offDiag h))
      (constant (F := Ideal) S0 .f32 0x00000000#32) h.red h.pos)
    (constant (F := Ideal) S0 .f32 0x497FC000#32)

end Cert.LagCorr

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.KernelTail.lean ====
/-
  The host lines after the kernel, read as one function of the kernel's five result arrays.

  From the cross products S and the four vectors sumc, suml, sqc, sql (each kept as a [1, F] row and first viewed as a
  vector) the host forms, with count = 32767,
      cov = S − outer(sumc, suml) / count,   nc = sqc − sumc² / count,   nl = sql − suml² / count,
  and then applies the last stretch shared with the reference.  Here the program's result is identified with that
  composition applied to what the five arrays hold when the region ends.
-/
import proofs.«160371_j7275674599912_1_alg».proof.Proof.Gen.KernelIdeal.Frame
import proofs.«160371_j7275674599912_1_alg».proof.Proof.CorrTail
import proofs.«160371_j7275674599912_1_alg».proof.Proof.LibHostBroadcasts
import proofs.«160371_j7275674599912_1_alg».proof.Proof.LibBroadcastRows
import proofs.«160371_j7275674599912_1_alg».proof.Proof.LibRowOfVector
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.HostTail
open Cert.KernelIdeal Cert.KernelIdeal.Gen Idealize.ShloMosaic.ValueIdx Cert.LagCorr

variable (m : (ℓ : Loc nD τ sig) → Buf (Elt Ideal) ℓ)

/-- The side conditions of the last stretch, as this program states them. -/
theorem tailFacts : TailFacts :=
  ⟨bcast_S1024_S1024x1_0, bcast_S1024_S1x1024_1, bcast_S1024x1_S1024x1024_0_1, bcast_S1x1024_S1024x1024_0_1,
    bcast_S_S1024x1024, reducesTo_S1024x1024_S_d0_1, h_S_⟩

/-- A [1, F] row viewed as a vector. -/
abbrev vecOf (a : FVec Ideal S1x1024 .f32) : FVec Ideal S1024 .f32 := shapeCast S1024 a shapeCasts_S1x1024_S1024

/-- The cross products with the product of the column sums over the count taken off. -/
def covOf (s : FVec Ideal S1024x1024 .f32) (sumc suml : FVec Ideal S1x1024 .f32) : FVec Ideal S1024x1024 .f32 :=
  subf s (Host.divf
    (mulf (broadcastInDim S1024x1024 ![0, 1] bcast_S1024x1_S1024x1024_0_1 (broadcastInDim S1024x1 ![0] bcast_S1024_S1024x1_0 (vecOf sumc)))
      (broadcastInDim S1024x1024 ![0, 1] bcast_S1x1024_S1024x1024_0_1 (broadcastInDim S1x1024 ![1] bcast_S1024_S1x1024_1 (vecOf suml))))
    (broadcastInDim S1024x1024 ![] bcast_S_S1024x1024 (constant (F := Ideal) S_ .f32 0x46FFFE00#32)))

/-- A sum of squares with the squared column sum over the count taken off. -/
def normOf (sq sum : FVec Ideal S1x1024 .f32) : FVec Ideal S1024 .f32 :=
  subf (vecOf sq) (Host.divf (mulf (vecOf sum) (vecOf sum))
    (broadcastInDim S1024 ![] bcast_S_S1024 (constant (F := Ideal) S_ .f32 0x46FFFE00#32)))

/-- The count, as the float constant the programs divide by. -/
abbrev cnt : EReal := Ideal.ofBits .f32 0x46FFFE00#32

/-- cov at (p, q): S[p,q] − sumc[p]·suml[q] / count. -/
theorem covOf_apply (s : FVec Ideal S1024x1024 .f32) (sumc suml : FVec Ideal S1x1024 .f32) (p q : Fin 1024) :
    covOf s sumc suml (ix2 p q)
      = s (ix2 p q) - Ideal.div (sumc (ix2 (0 : Fin 1) p) * suml (ix2 (0 : Fin 1) q)) cnt := by
  unfold covOf
  show s (ix2 p q) - Ideal.div
      (broadcastInDim S1024x1024 ![0, 1] bcast_S1024x1_S1024x1024_0_1 (broadcastInDim S1024x1 ![0] bcast_S1024_S1024x1_0 (vecOf sumc)) (ix2 p q)
        * broadcastInDim S1024x1024 ![0, 1] bcast_S1x1024_S1024x1024_0_1 (broadcastInDim S1x1024 ![1] bcast_S1024_S1x1024_1 (vecOf suml)) (ix2 p q))
      (broadcastInDim S1024x1024 ![] bcast_S_S1024x1024 (constant (F := Ideal) S_ .f32 0x46FFFE00#32) (ix2 p q)) = _
  rw [Cert.HostBroadcasts.col_rows_apply, Cert.HostBroadcasts.col_apply, Cert.BroadcastRows.row_apply,
    Cert.BroadcastRows.unit_apply, Cert.HostBroadcasts.scalar_apply]
  dsimp only [vecOf]
  rw [Cert.RowOfVector.vector_apply, Cert.RowOfVector.vector_apply]
  rfl

/-- A squared norm at p: sq[p] − sum[p]² / count. -/
theorem normOf_apply (sq sum : FVec Ideal S1x1024 .f32) (p : Fin 1024) :
    normOf sq sum (ix1 p)
      = sq (ix2 (0 : Fin 1) p) - Ideal.div (sum (ix2 (0 : Fin 1) p) * sum (ix2 (0 : Fin 1) p)) cnt := by
  unfold normOf
  show vecOf sq (ix1 p) - Ideal.div (vecOf sum (ix1 p) * vecOf sum (ix1 p))
      (broadcastInDim S1024 ![] bcast_S_S1024 (constant (F := Ideal) S_ .f32 0x46FFFE00#32) (ix1 p)) = _
  rw [Cert.HostBroadcasts.scalar_apply]
  dsimp only [vecOf]
  rw [Cert.RowOfVector.vector_apply, Cert.RowOfVector.vector_apply]
  rfl

/-- The buffer contents the lines after the region start from: the region's arrays at their final contents. -/
abbrev after (c : Dev nD) : Valuation τ sig (Elt Ideal) :=
  Pipeline.withArrays (cfgs 0).spec c (V0 m c) fun w => (dats m 0 c).arrAt w (cfgs 0).N

/-- The program's result is the shared last stretch of cov, nc, nl formed from the arrays after the region. -/
theorem result_eq_after (c : Dev nD) :
    Pipeline.afterTail₀ cfgs (dats m) 0 (V0 m) [hostOps1] c main_v43
      = corrTail tailFacts
          (covOf (after m c (Proc.devRef .tc main_v4_0)) (after m c (Proc.devRef .tc main_v4_1)) (after m c (Proc.devRef .tc main_v4_2)))
          (normOf (after m c (Proc.devRef .tc main_v4_3)) (after m c (Proc.devRef .tc main_v4_1)))
          (normOf (after m c (Proc.devRef .tc main_v4_4)) (after m c (Proc.devRef .tc main_v4_2))) := by
  unfold Pipeline.afterTail₀
  show StableHlo.after hostOps1 (after m c) (Proc.devRef .tc main_v43) = _
  after_results_simp
  rfl

end Cert.KernelIdeal.HostTail
end
-- ==== Proof.RefSide.lean ====
/-
  The reference, read entry by entry as a function of the input x : [32768, F].

  With the current rows xc[k] = x[k + 1] and the lagged rows xl[k] = x[k], k < 32767, and count = 32767:
    the column sums      Σ_k xc[k,i]  and  Σ_k xl[k,i],
    the centred rows     zc[k,i] = xc[k,i] − (Σ xc[·,i]) / count,   zl likewise,
    the cross products   cov[p,q] = Σ_k zc[k,p]·zl[k,q],
    the squared norms    nc[p] = Σ_k zc[k,p]²,   nl[q] = Σ_k zl[k,q]²,
  and the result is the shared last stretch applied to cov, nc, nl.
-/
import proofs.«160371_j7275674599912_1_alg».proof.Proof.Gen.ReferenceIdeal.Read
import proofs.«160371_j7275674599912_1_alg».proof.Proof.CorrTail
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.ReferenceIdeal.RefValue
open Cert.ReferenceIdeal Cert.ReferenceIdeal.Gen Cert.ReferenceIdeal.Read Idealize.ShloMosaic.ValueIdx Cert.LagCorr

/-- The side conditions of the last stretch, as this program states them. -/
theorem tailFacts : TailFacts :=
  ⟨bcast_S1024_S1024x1_0, bcast_S1024_S1x1024_1, bcast_S1024x1_S1024x1024_0_1, bcast_S1x1024_S1024x1024_0_1,
    bcast_S_S1024x1024, reducesTo_S1024x1024_S_d0_1, h_S_⟩

/-- The reference's result is the shared last stretch of its cross products and squared norms. -/
theorem result_eq (x : FVec Ideal S32768x1024 .f32) :
    val_main_v37 (F := Ideal) x = corrTail tailFacts (val_main_v14 (F := Ideal) x) (val_main_v16 (F := Ideal) x) (val_main_v18 (F := Ideal) x) := rfl

/-- The count, as the float constant the programs divide by. -/
abbrev cnt : EReal := Ideal.ofBits .f32 0x46FFFE00#32

variable (x : FVec Ideal S32768x1024 .f32)

/-- The current rows: row k is row k + 1 of x. -/
theorem cur_apply (k : Fin 32767) (i : Fin 1024) : val_main_v0 (F := Ideal) x (ix2 k i) = x (ix2 k.succ i) := by
  rw [val_main_v0_apply]
  exact congrArg x (funext fun a => Fin.ext (by
    match a with
    | ⟨0, _⟩ => show 1 + k.val = k.val + 1; omega
    | ⟨1, _⟩ => rfl))

/-- The lagged rows: row k is row k of x. -/
theorem lag_apply (k : Fin 32767) (i : Fin 1024) : val_main_v1 (F := Ideal) x (ix2 k i) = x (ix2 k.castSucc i) := by
  rw [val_main_v1_apply]
  exact congrArg x (funext fun a => Fin.ext (by match a with | ⟨0, _⟩ => rfl | ⟨1, _⟩ => rfl))

/-- The column sums. -/
theorem sumc_apply (i : Fin 1024) : val_main_v2 (F := Ideal) x (ix1 i) = ∑ k : Fin 32767, x (ix2 k.succ i) := by
  rw [val_main_v2_apply]
  show Ideal.ofBits .f32 0x00000000#32 + _ = _
  rw [Ideal.ofBits_zero_f32, zero_add]
  refine Finset.sum_congr rfl fun k _ => ?_
  have e : idx_main_v2 (ix1 i) k = ix2 k i := funext fun a => Fin.ext (by match a with | ⟨0, _⟩ => rfl | ⟨1, _⟩ => rfl)
  rw [e, cur_apply]

theorem suml_apply (i : Fin 1024) : val_main_v8 (F := Ideal) x (ix1 i) = ∑ k : Fin 32767, x (ix2 k.castSucc i) := by
  rw [val_main_v8_apply]
  show Ideal.ofBits .f32 0x00000000#32 + _ = _
  rw [Ideal.ofBits_zero_f32, zero_add]
  refine Finset.sum_congr rfl fun k _ => ?_
  have e : idx_main_v8 (ix1 i) k = ix2 k i := funext fun a => Fin.ext (by match a with | ⟨0, _⟩ => rfl | ⟨1, _⟩ => rfl)
  rw [e, lag_apply]

/-- The centred rows. -/
theorem zc_apply (k : Fin 32767) (i : Fin 1024) :
    val_main_v7 (F := Ideal) x (ix2 k i) = x (ix2 k.succ i) - Ideal.div (∑ k' : Fin 32767, x (ix2 k'.succ i)) cnt := by
  have e6 : idx_main_v6 (ix2 k i) = ix2 (0 : Fin 1) i := funext fun a => Fin.ext (by match a with | ⟨0, _⟩ => rfl | ⟨1, _⟩ => rfl)
  have e3 : idx_main_v3 (ix2 (0 : Fin 1) i) = ix1 i := funext fun a => Fin.ext (by match a with | ⟨0, _⟩ => rfl)
  rw [val_main_v7_apply, val_main_v6_apply, e6, val_main_v5_apply, val_main_v3_apply, e3, val_main_v4_apply,
    val_main_cst_0_apply, cur_apply, sumc_apply]
  rfl

theorem zl_apply (k : Fin 32767) (i : Fin 1024) :
    val_main_v13 (F := Ideal) x (ix2 k i) = x (ix2 k.castSucc i) - Ideal.div (∑ k' : Fin 32767, x (ix2 k'.castSucc i)) cnt := by
  have e12 : idx_main_v12 (ix2 k i) = ix2 (0 : Fin 1) i := funext fun a => Fin.ext (by match a with | ⟨0, _⟩ => rfl | ⟨1, _⟩ => rfl)
  have e9 : idx_main_v9 (ix2 (0 : Fin 1) i) = ix1 i := funext fun a => Fin.ext (by match a with | ⟨0, _⟩ => rfl)
  rw [val_main_v13_apply, val_main_v12_apply, e12, val_main_v11_apply, val_main_v9_apply, e9, val_main_v10_apply,
    val_main_cst_2_apply, lag_apply, suml_apply]
  rfl

/-- The cross products of the centred rows. -/
theorem cov_apply (p q : Fin 1024) : val_main_v14 (F := Ideal) x (ix2 p q)
    = ∑ k : Fin 32767, (x (ix2 k.succ p) - Ideal.div (∑ k' : Fin 32767, x (ix2 k'.succ p)) cnt)
        * (x (ix2 k.castSucc q) - Ideal.div (∑ k' : Fin 32767, x (ix2 k'.castSucc q)) cnt) := by
  rw [val_main_v14_apply]
  refine Finset.sum_congr rfl fun k _ => ?_
  have el : lidx_main_v14 (ix2 p q) k = ix2 k p := funext fun a => Fin.ext (by match a with | ⟨0, _⟩ => rfl | ⟨1, _⟩ => rfl)
  have er : ridx_main_v14 (ix2 p q) k = ix2 k q := funext fun a => Fin.ext (by match a with | ⟨0, _⟩ => rfl | ⟨1, _⟩ => rfl)
  rw [el, er, zc_apply, zl_apply]

/-- The squared norms of the centred rows. -/
theorem nc_apply (p : Fin 1024) : val_main_v16 (F := Ideal) x (ix1 p)
    = ∑ k : Fin 32767, (x (ix2 k.succ p) - Ideal.div (∑ k' : Fin 32767, x (ix2 k'.succ p)) cnt)
        * (x (ix2 k.succ p) - Ideal.div (∑ k' : Fin 32767, x (ix2 k'.succ p)) cnt) := by
  rw [val_main_v16_apply]
  show Ideal.ofBits .f32 0x00000000#32 + _ = _
  rw [Ideal.ofBits_zero_f32, zero_add]
  refine Finset.sum_congr rfl fun k _ => ?_
  have e : idx_main_v16 (ix1 p) k = ix2 k p := funext fun a => Fin.ext (by match a with | ⟨0, _⟩ => rfl | ⟨1, _⟩ => rfl)
  rw [e, val_main_v15_apply, zc_apply]
  rfl

theorem nl_apply (q : Fin 1024) : val_main_v18 (F := Ideal) x (ix1 q)
    = ∑ k : Fin 32767, (x (ix2 k.castSucc q) - Ideal.div (∑ k' : Fin 32767, x (ix2 k'.castSucc q)) cnt)
        * (x (ix2 k.castSucc q) - Ideal.div (∑ k' : Fin 32767, x (ix2 k'.castSucc q)) cnt) := by
  rw [val_main_v18_apply]
  show Ideal.ofBits .f32 0x00000000#32 + _ = _
  rw [Ideal.ofBits_zero_f32, zero_add]
  refine Finset.sum_congr rfl fun k _ => ?_
  have e : idx_main_v18 (ix1 q) k = ix2 k q := funext fun a => Fin.ext (by match a with | ⟨0, _⟩ => rfl | ⟨1, _⟩ => rfl)
  rw [e, val_main_v17_apply, zl_apply]
  rfl

end Cert.ReferenceIdeal.RefValue
end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.LagAlgebra.lean ====
/-
  The one algebraic law of the lagged-correlation certificate.

  For two finite families a, b of real numbers indexed by n ≠ 0 positions, with column sums A = Σ a and B = Σ b,
  the sum of products of the centred families is the raw sum of products minus A·B/n:

      Σ_t (a t − A/n)·(b t − B/n) = Σ_t a t·b t − A·B/n,

  because the two mixed terms are each A·B/n and the constant term is n·(A/n)·(B/n) = A·B/n.  It is stated over the
  extended reals for families of real numbers, with the quotient by the count n read as the product with 1/n: the
  distributive law it rests on fails at the infinities, so the entries must be real.
-/
import proofs.«160371_j7275674599912_1_alg».proof.Proof.LibRealEntries

noncomputable section

namespace Cert.LagCorr

open Cert.RealEntries Idealize.ShloMosaic

variable {ι : Type} [Fintype ι]

/-- The law over the reals. -/
theorem centred_cross_real (a b : ι → ℝ) (n : ℝ) (hn : n ≠ 0) (hcard : (Fintype.card ι : ℝ) = n) :
    ∑ t, (a t - (∑ s, a s) * (1 / n)) * (b t - (∑ s, b s) * (1 / n))
      = ∑ t, a t * b t - ((∑ s, a s) * (∑ s, b s)) * (1 / n) := by
  simp only [sub_mul, mul_sub, Finset.sum_sub_distrib, ← Finset.sum_mul, ← Finset.mul_sum, Finset.sum_const,
    Finset.card_univ, nsmul_eq_mul, hcard]
  field_simp
  ring

/-- The law over the extended reals, for families of real numbers, with the quotients as the exact division by the
    real count. -/
theorem centred_cross (a b : ι → EReal) (ha : ∀ t, IsR (a t)) (hb : ∀ t, IsR (b t)) (cnt : EReal) (n : ℝ)
    (hcnt : cnt = (n : EReal)) (hn : n ≠ 0) (hcard : (Fintype.card ι : ℝ) = n) :
    ∑ t, (a t - Ideal.div (∑ s, a s) cnt) * (b t - Ideal.div (∑ s, b s) cnt)
      = (∑ t, a t * b t) - Ideal.div ((∑ s, a s) * (∑ s, b s)) cnt := by
  subst hcnt
  choose a' ha' using ha
  choose b' hb' using hb
  have ea : a = fun t => ((a' t : ℝ) : EReal) := funext ha'
  have eb : b = fun t => ((b' t : ℝ) : EReal) := funext hb'
  subst ea eb
  simp only [Ideal.div_coe hn, ← coe_sum, ← EReal.coe_mul, ← EReal.coe_sub]
  rw [EReal.coe_eq_coe_iff]
  exact centred_cross_real a' b' n hn hcard

/-- A sum over n + 1 positions whose last term is zero is the sum over the first n. -/
theorem sum_castSucc_of_last_zero {n : ℕ} (f : Fin (n + 1) → EReal) (h : f (Fin.last n) = 0) :
    ∑ k, f k = ∑ k : Fin n, f k.castSucc := by
  rw [Fin.sum_univ_castSucc, h, add_zero]

end Cert.LagCorr

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«160371_j7275674599912_1_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.Bridge.lean ====
/-
  The kernel's cov, nc, nl are the reference's, for a finite input.

  The kernel accumulates the raw sums S = Σ_k xc[k,p]·xl[k,q], Σ xc, Σ xl, Σ xc², Σ xl² over the 32767 rows of the
  lagged pair and the host then takes off the products of the column sums over the count; the reference centres the
  rows first and sums the products of the centred rows.  For real entries the two agree:
      Σ_k (a k − A/n)(b k − B/n) = Σ_k a k·b k − A·B/n     (A = Σ a, B = Σ b, n = 32767),
  used with a = a column of the current rows and b = a column of the lagged rows for cov, and with a = b for the two
  squared norms.  The input's entries are real numbers by the precondition that every input is finite.
-/
import proofs.«160371_j7275674599912_1_alg».proof.Proof.RegionArrays
import proofs.«160371_j7275674599912_1_alg».proof.Proof.Totals
import proofs.«160371_j7275674599912_1_alg».proof.Proof.KernelTail
import proofs.«160371_j7275674599912_1_alg».proof.Proof.RefSide
import proofs.«160371_j7275674599912_1_alg».proof.Proof.LagAlgebra
import proofs.«160371_j7275674599912_1_alg».proof.Proof.LibFiniteInputs
import proofs.«160371_j7275674599912_1_alg».proof.Proof.Gen.Pre_finite_inputs

set_option maxRecDepth 16384

noncomputable section

open Idealize.ShloMosaic Idealize.ShloMosaic.TcCoe Idealize.SL.Sem
open Idealize.ShloMosaic.Pipeline (Dat)

namespace Cert.Bridge
open Idealize.ShloMosaic.ValueIdx Cert.RealEntries Cert.LagCorr
open Cert.KernelIdeal Cert.KernelIdeal.Gen Cert.KernelIdeal.Region Cert.KernelIdeal.Totals Cert.KernelIdeal.HostTail
open Cert.KernelIdeal.Padded (xin)

/-- The float constant the programs divide by denotes the count 32767. -/
theorem cnt_eq : (Ideal.ofBits .f32 0x46FFFE00#32 : EReal) = ((32767 : ℝ) : EReal) := by
  simp [Ideal.ofBits, Ideal.ieee, -EReal.coe_mul]; norm_num

variable (m : (ℓ : Loc nD τ sig) → Buf (Elt Ideal) ℓ)

/-- The precondition: every entry of the input is a real number. -/
theorem input_real [Cert.Pre_finite_inputs.Facts] (c : Dev nD)
    (h : Cert.Pre_finite_inputs.fn (F := Ideal) (m ((c.tc : Thread nD τ).loc main_arg0)) = fun _ => 1#1) :
    AllReal (φ := .f32) (xin m c) := by
  have e := congrFun h ix0
  dsimp only [Cert.Pre_finite_inputs.fn] at e
  haveI : Subsingleton Cert.Pre_finite_inputs.S_.Idx := ⟨fun a b => funext fun d => d.elim0⟩
  exact allReal_of_all_finite _ _ _ _ _ ix0 e

variable (tl : Fin cfg0.N) (htl : tl.val = 63)

include htl in
/-- cov: the kernel's is the reference's. -/
theorem cov_eq (c : Dev nD) (hx : AllReal (φ := .f32) (xin m c)) :
    covOf (acc2 m tl c) (acc3 m tl c) (acc4 m tl c) = Cert.ReferenceIdeal.Read.val_main_v14 (F := Ideal) (xin m c) := by
  funext j
  obtain ⟨p, q, rfl⟩ : ∃ (p q : Fin 1024), j = ix2 p q := ⟨j 0, j 1, eq_ix2 j⟩
  refine (covOf_apply _ _ _ p q).trans ?_
  rw [acc2_apply m tl htl, acc3_apply m tl htl, acc4_apply m tl htl, cross_total, sumc_total, suml_total]
  refine Eq.trans ?_ (Cert.ReferenceIdeal.RefValue.cov_apply (xin m c) p q).symm
  exact (centred_cross (fun k : Fin 32767 => xin m c (ix2 k.succ p)) (fun k : Fin 32767 => xin m c (ix2 k.castSucc q))
    (fun k => hx _) (fun k => hx _) _ 32767 cnt_eq (by norm_num) (by simp)).symm

include htl in
/-- nc: the kernel's is the reference's. -/
theorem nc_eq (c : Dev nD) (hx : AllReal (φ := .f32) (xin m c)) :
    normOf (acc5 m tl c) (acc3 m tl c) = Cert.ReferenceIdeal.Read.val_main_v16 (F := Ideal) (xin m c) := by
  funext j
  obtain ⟨p, rfl⟩ : ∃ p : Fin 1024, j = ix1 p := ⟨j 0, eq_ix1 j⟩
  refine (normOf_apply _ _ p).trans ?_
  rw [acc5_apply m tl htl, acc3_apply m tl htl, sqc_total, sumc_total]
  refine Eq.trans ?_ (Cert.ReferenceIdeal.RefValue.nc_apply (xin m c) p).symm
  exact (centred_cross (fun k : Fin 32767 => xin m c (ix2 k.succ p)) (fun k : Fin 32767 => xin m c (ix2 k.succ p))
    (fun k => hx _) (fun k => hx _) _ 32767 cnt_eq (by norm_num) (by simp)).symm

include htl in
/-- nl: the kernel's is the reference's. -/
theorem nl_eq (c : Dev nD) (hx : AllReal (φ := .f32) (xin m c)) :
    normOf (acc6 m tl c) (acc4 m tl c) = Cert.ReferenceIdeal.Read.val_main_v18 (F := Ideal) (xin m c) := by
  funext j
  obtain ⟨q, rfl⟩ : ∃ q : Fin 1024, j = ix1 q := ⟨j 0, eq_ix1 j⟩
  refine (normOf_apply _ _ q).trans ?_
  rw [acc6_apply m tl htl, acc4_apply m tl htl, sql_total, suml_total]
  refine Eq.trans ?_ (Cert.ReferenceIdeal.RefValue.nl_apply (xin m c) q).symm
  exact (centred_cross (fun k : Fin 32767 => xin m c (ix2 k.castSucc q)) (fun k : Fin 32767 => xin m c (ix2 k.castSucc q))
    (fun k => hx _) (fun k => hx _) _ 32767 cnt_eq (by norm_num) (by simp)).symm

end Cert.Bridge
end
-- ==== Proof.KernelResult.lean ====
/-
  The kernel program's run, read: for a finite input its result is the reference's function of the input.

  The region leaves the five accumulated arrays; the host lines after it form cov, nc and nl from them and apply the
  shared last stretch; for a finite input those cov, nc, nl are the reference's, so the result is the reference's
  result term evaluated at the kernel's input.
-/
import proofs.«160371_j7275674599912_1_alg».proof.Proof.Bridge

set_option maxRecDepth 16384

noncomputable section

open Idealize.ShloMosaic Idealize.ShloMosaic.TcCoe Idealize.SL.Sem
open Idealize.ShloMosaic.Pipeline (Dat)

namespace Cert.KernelIdeal.Result
open Idealize.ShloMosaic.ValueIdx Cert.RealEntries Cert.LagCorr
open Cert.KernelIdeal Cert.KernelIdeal.Gen Cert.KernelIdeal.Region Cert.KernelIdeal.HostTail
open Cert.KernelIdeal.Padded (xin)

variable (m : (ℓ : Loc nD τ sig) → Buf (Elt Ideal) ℓ) (ρ : Dev nD → PrngReg)

/-- What the lines after the region compute, for a finite input. -/
theorem result_eq (c : Dev nD) (hx : AllReal (φ := .f32) (xin m c)) :
    Pipeline.afterTail₀ cfgs (dats m) 0 (V0 m) [hostOps1] c main_v43
      = Cert.ReferenceIdeal.Read.val_main_v37 (F := Ideal) (xin m c) := by
  obtain ⟨tl, htl⟩ := exists_last
  have e2 : after m c (Proc.devRef .tc main_v4_0) = acc2 m tl c :=
    (Pipeline.withArrays_arr spec0 launch0.win.arr_inj c _ _ 2).trans (final2 m tl htl c)
  have e3 : after m c (Proc.devRef .tc main_v4_1) = acc3 m tl c :=
    (Pipeline.withArrays_arr spec0 launch0.win.arr_inj c _ _ 3).trans (final3 m tl htl c)
  have e4 : after m c (Proc.devRef .tc main_v4_2) = acc4 m tl c :=
    (Pipeline.withArrays_arr spec0 launch0.win.arr_inj c _ _ 4).trans (final4 m tl htl c)
  have e5 : after m c (Proc.devRef .tc main_v4_3) = acc5 m tl c :=
    (Pipeline.withArrays_arr spec0 launch0.win.arr_inj c _ _ 5).trans (final5 m tl htl c)
  have e6 : after m c (Proc.devRef .tc main_v4_4) = acc6 m tl c :=
    (Pipeline.withArrays_arr spec0 launch0.win.arr_inj c _ _ 6).trans (final6 m tl htl c)
  refine (result_eq_after m c).trans ?_
  rw [e2, e3, e4, e5, e6, Cert.Bridge.cov_eq m tl htl c hx, Cert.Bridge.nc_eq m tl htl c hx, Cert.Bridge.nl_eq m tl htl c hx]
  exact (Cert.ReferenceIdeal.RefValue.result_eq (xin m c)).symm

/-- The run: for a finite input the result buffer ends at the reference's function of the input, the input unchanged. -/
theorem run (hx : ∀ c, AllReal (φ := .f32) (xin m c)) :
    θ_run defs (onTc (τ := τ) (main (F := Ideal))) ⟨m, fun _ => 0, ρ⟩ fun r => ∀ c : Dev nD,
      r.2.mem ((c.tc : Thread nD τ).loc main_v43) = Cert.ReferenceIdeal.Read.val_main_v37 (F := Ideal) (xin m c)
      ∧ r.2.mem ((c.tc : Thread nD τ).loc main_arg0) = m ((c.tc : Thread nD τ).loc main_arg0) :=
  (θ_run defs _ _).mono (fun _ h c =>
    ⟨((h c).2 main_v43 (Pipeline.mem_restRefs_of main_v43 (by decide) (by decide))).trans (result_eq m c (hx c)),
      ((h c).2 main_arg0 (Pipeline.mem_restRefs_of main_arg0 (by decide) (by decide))).trans (W_main_arg0 m (dats m) c)⟩)
    (run_main m ρ)

end Cert.KernelIdeal.Result
end
-- ==== Proof.lean ====
/-
  The certificate of the lagged-correlation kernel against its jnp reference.

  Both programs compute, from x : [32768, F], the mean over the off-diagonal pairs (i, j) of
  |cov[i,j] / sqrt(nc[i]·nl[j])|, where cov, nc, nl are the cross products and squared norms of the centred
  columns of the current rows x[1:] and the lagged rows x[:-1].  The reference centres the rows and sums; the kernel
  accumulates the raw sums over 64 grid steps of 512 rows and the host corrects them by the products of the column
  sums over the count.  For a finite input the two are equal over the extended reals (the law of the module
  LagAlgebra), so the two results are the same function of the input.  The frames are the generated ones (the
  reference's is its run with the result dropped); the idealization rewrote nothing.
-/
import proofs.«160371_j7275674599912_1_alg».proof.Defs
import proofs.«160371_j7275674599912_1_alg».proof.Proof.Gen.Kernel.Frame
import proofs.«160371_j7275674599912_1_alg».proof.Proof.Gen.KernelIdeal.Frame
import proofs.«160371_j7275674599912_1_alg».proof.Proof.Gen.ReferenceIdeal.Run
import proofs.«160371_j7275674599912_1_alg».proof.Proof.Gen.Pre_finite_inputs
import proofs.«160371_j7275674599912_1_alg».proof.Proof.KernelResult

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on a finite input, both programs end at the reference's function of that input. -/
theorem algebraic : Cert.algebraic_KernelIdeal_ReferenceIdeal := by
  intro m ρ m' ρ' hpre hagree
  refine ⟨fun c => Cert.ReferenceIdeal.Read.val_main_v37 (F := Ideal) (Cert.KernelIdeal.Padded.xin m c),
    Cert.KernelIdeal.Result.run m ρ (fun c => Cert.Bridge.input_real m c (hpre c)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
